-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S1600000 : Shape := ⟨1, ![1600000]⟩
abbrev S256x64 : Shape := ⟨2, ![256, 64]⟩
abbrev S256 : Shape := ⟨1, ![256]⟩
abbrev S256x256 : Shape := ⟨2, ![256, 256]⟩
abbrev S64x256 : Shape := ⟨2, ![64, 256]⟩
abbrev S64 : Shape := ⟨1, ![64]⟩
abbrev S2x1600000 : Shape := ⟨2, ![2, 1600000]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S256x64 : S_.BroadcastsInDim S256x64 (![] : Fin 0 → Fin S256x64.rank)
  reducesTo_S256x64_S_d0_1 : S256x64.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S64x256 : S_.BroadcastsInDim S64x256 (![] : Fin 0 → Fin S64x256.rank)
  reducesTo_S64x256_S_d0_1 : S64x256.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S64 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg4 : FVec F S256x256 .f32) (main_arg5 : FVec F S256 .f32) (main_arg6 : FVec F S64x256 .f32) (main_arg7 : FVec F S64 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S64x256 .f32 := Host.absf main_arg6
  let main_cst_10 : FVec F S_ .f32 := constant S_ .f32 0x7F800000#32
  let main_v30 : FVec F S64x256 .f32 := broadcastInDim S64x256 ![] bcast_S_S64x256 main_cst_10
  let main_v31 : IVec S64x256 1 := cmpf .olt main_v29 main_v30
  let main_c_11 : IVec S_ 1 := constantI S_ 1 1#1
  let main_v32 : IVec S_ 1 := (fun x v => Host.reduce IntOp.andi x v reducesTo_S64x256_S_d0_1 h_S_) main_v31 main_c_11
  let main_v33 : IVec S_ 1 := andi main_v28 main_v32
  fn_part2 (F := F) main_arg7 main_v33

def fn {F : FTy → Type} [FloatOps F] (main_arg0 : FVec F S100000x32 .f32) (main_arg1 : FVec F S1600000 .f32) (main_arg2 : FVec F S256x64 .f32) (main_arg3 : FVec F S256 .f32) (main_arg4 : FVec F S256x256 .f32) (main_arg5 : FVec F S256 .f32) (main_arg6 : FVec F S64x256 .f32) (main_arg7 : FVec F S64 .f32) (main_arg8 : IVec S2x1600000 32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S1600000 .f32 := Host.absf main_arg1
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S256x64 .f32 := Host.absf main_arg2
  let main_cst_2 : FVec F S_ .f32 := constant S_ .f32 0x7F800000#32
  let main_v10 : FVec F S256x64 .f32 := broadcastInDim S256x64 ![] bcast_S_S256x64 main_cst_2
  let main_v11 : IVec S256x64 1 := cmpf .olt main_v9 main_v10
  let main_c_3 : IVec S_ 1 := constantI S_ 1 1#1
  let main_v12 : IVec S_ 1 := (fun x v => Host.reduce IntOp.andi x v reducesTo_S256x64_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_v13 main_v16
-- ==== Kernel.lean ====
abbrev S100000x32 : Shape := ⟨2, ![100000, 32]⟩
abbrev S1600000 : Shape := ⟨1, ![1600000]⟩
abbrev S256x64 : Shape := ⟨2, ![256, 64]⟩
abbrev S256 : Shape := ⟨1, ![256]⟩
abbrev S256x256 : Shape := ⟨2, ![256, 256]⟩
abbrev S64x256 : Shape := ⟨2, ![64, 256]⟩
abbrev S64 : Shape := ⟨1, ![64]⟩
abbrev S2x1600000 : Shape := ⟨2, ![2, 1600000]⟩
abbrev S1x1600000 : Shape := ⟨2, ![1, 1600000]⟩
abbrev S_ : Shape := ⟨0, ![]⟩
abbrev S1600000x1 : Shape := ⟨2, ![1600000, 1]⟩
abbrev S1600000x32 : Shape := ⟨2, ![1600000, 32]⟩
abbrev S256x32 : Shape := ⟨2, ![256, 32]⟩
abbrev S32x256 : Shape := ⟨2, ![32, 256]⟩
abbrev S1x256 : Shape := ⟨2, ![1, 256]⟩
abbrev S1x64 : Shape := ⟨2, ![1, 64]⟩
abbrev S100000x64 : Shape := ⟨2, ![100000, 64]⟩
abbrev S4000x32 : Shape := ⟨2, ![4000, 32]⟩
abbrev S4000x64 : Shape := ⟨2, ![4000, 64]⟩
abbrev S4000x256 : Shape := ⟨2, ![4000, 256]⟩

abbrev nBuf : Space → Nat
  | .hbm => 43
  | .vmem => 13
  | .smem => 0
  | _ => 0

abbrev bufTy : (tb : Table) → Fin (tcTables nBuf tb) → BufTy
  | .hbm, ⟨0, _⟩ => ⟨S100000x32, .f32⟩
  | .hbm, ⟨1, _⟩ => ⟨S1600000, .f32⟩
  | .hbm, ⟨2, _⟩ => ⟨S256x64, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S64x256, .f32⟩
  | .hbm, ⟨7, _⟩ => ⟨S64, .f32⟩
  | .hbm, ⟨8, _⟩ => ⟨S2x1600000, .i32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x32, .f32⟩
  | .hbm, ⟨22, _⟩ => ⟨S1600000x1, .f32⟩
  | .hbm, ⟨23, _⟩ => ⟨S1600000x32, .f32⟩
  | .hbm, ⟨24, _⟩ => ⟨S1600000x32, .f32⟩
  | .hbm, ⟨25, _⟩ => ⟨S_, .f32⟩
  | .hbm, ⟨26, _⟩ => ⟨S100000x32, .f32⟩
  | .hbm, ⟨27, _⟩ => ⟨S1600000x1, .i32⟩
  | .hbm, ⟨28, _⟩ => ⟨S100000x32, .f32⟩
  | .hbm, ⟨29, _⟩ => ⟨S256x32, .f32⟩
  | .hbm, ⟨30, _⟩ => ⟨S32x256, .f32⟩
  | .hbm, ⟨31, _⟩ => ⟨S32x256, .bf16⟩
  | .hbm, ⟨32, _⟩ => ⟨S256x32, .f32⟩
  | .hbm, ⟨33, _⟩ => ⟨S32x256, .f32⟩
  | .hbm, ⟨34, _⟩ => ⟨S32x256, .bf16⟩
  | .hbm, ⟨35, _⟩ => ⟨S256x256, .f32⟩
  | .hbm, ⟨36, _⟩ => ⟨S256x256, .bf16⟩
  | .hbm, ⟨37, _⟩ => ⟨S256x64, .f32⟩
  | .hbm, ⟨38, _⟩ => ⟨S256x64, .bf16⟩
  | .hbm, ⟨39, _⟩ => ⟨S1x256, .f32⟩
  | .hbm, ⟨40, _⟩ => ⟨S1x256, .f32⟩
  | .hbm, ⟨41, _⟩ => ⟨S1x64, .f32⟩
  | .hbm, ⟨42, _⟩ => ⟨S100000x64, .f32⟩
  | .local _ .vmem, ⟨0, _⟩ => ⟨S4000x32, .f32⟩
  | .local _ .vmem, ⟨1, _⟩ => ⟨S4000x32, .f32⟩
  | .local _ .vmem, ⟨2, _⟩ => ⟨S4000x32, .f32⟩
  | .local _ .vmem, ⟨3, _⟩ => ⟨S4000x32, .f32⟩
  | .local _ .vmem, ⟨4, _⟩ => ⟨S32x256, .bf16⟩
  | .local _ .vmem, ⟨5, _⟩ => ⟨S32x256, .bf16⟩
  | .local _ .vmem, ⟨6, _⟩ => ⟨S1x256, .f32⟩
  | .local _ .vmem, ⟨7, _⟩ => ⟨S256x256, .bf16⟩
  | .local _ .vmem, ⟨8, _⟩ => ⟨S1x256, .f32⟩
  | .local _ .vmem, ⟨9, _⟩ => ⟨S256x64, .bf16⟩
  | .local _ .vmem, ⟨10, _⟩ => ⟨S1x64, .f32⟩
  | .local _ .vmem, ⟨11, _⟩ => ⟨S4000x64, .f32⟩
  | .local _ .vmem, ⟨12, _⟩ => ⟨S4000x64, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_c : Ref sig .tc := ⟨.hbm, 13, rfl⟩
abbrev main_call0_v4 : Ref sig .tc := ⟨.hbm, 14, rfl⟩
abbrev main_call0_v5 : Ref sig .tc := ⟨.hbm, 15, rfl⟩
abbrev main_call0_c_0 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_v12 : Ref sig .tc := ⟨.hbm, 23, rfl⟩
abbrev main_call0_v13 : Ref sig .tc := ⟨.hbm, 24, rfl⟩
abbrev main_call0_cst : Ref sig .tc := ⟨.hbm, 25, rfl⟩
abbrev main_call0_v14 : Ref sig .tc := ⟨.hbm, 26, rfl⟩
abbrev main_call0_v15 : Ref sig .tc := ⟨.hbm, 27, rfl⟩
abbrev main_call0_v16 : Ref sig .tc := ⟨.hbm, 28, rfl⟩
abbrev main_call0_v17 : Ref sig .tc := ⟨.hbm, 29, rfl⟩
abbrev main_call0_v18 : Ref sig .tc := ⟨.hbm, 30, rfl⟩
abbrev main_call0_v19 : Ref sig .tc := ⟨.hbm, 31, rfl⟩
abbrev main_call0_v20 : Ref sig .tc := ⟨.hbm, 32, rfl⟩
abbrev main_call0_v21 : Ref sig .tc := ⟨.hbm, 33, rfl⟩
abbrev main_call0_v22 : Ref sig .tc := ⟨.hbm, 34, rfl⟩
abbrev main_call0_v23 : Ref sig .tc := ⟨.hbm, 35, rfl⟩
abbrev main_call0_v24 : Ref sig .tc := ⟨.hbm, 36, rfl⟩
abbrev main_call0_v25 : Ref sig .tc := ⟨.hbm, 37, rfl⟩
abbrev main_call0_v26 : Ref sig .tc := ⟨.hbm, 38, rfl⟩
abbrev main_call0_v27 : Ref sig .tc := ⟨.hbm, 39, rfl⟩
abbrev main_call0_v28 : Ref sig .tc := ⟨.hbm, 40, rfl⟩
abbrev main_call0_v29 : Ref sig .tc := ⟨.hbm, 41, rfl⟩
abbrev main_v0 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4000x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  slices_S256x64_S256x32_0_0 : S256x64.Slices ![0, 0] S256x32
  transposes_S256x32_S32x256_1_0 : S256x32.Transposes [1, 0] S32x256
  bitsLt_bf16_f32 : FTy.bits .bf16 < FTy.bits .f32
  slices_S256x64_S256x32_0_32 : S256x64.Slices ![0, 32] S256x32
  transposes_S256x256_S256x256_1_0 : S256x256.Transposes [1, 0] S256x256
  transposes_S64x256_S256x64_1_0 : S64x256.Transposes [1, 0] S256x64
  shapeCasts_S256_S1x256 : S256.ShapeCasts S1x256
  shapeCasts_S64_S1x64 : S64.ShapeCasts S1x64
  inb_S4000x32_S4000x32_0_0 : ∀ a, (![0, 0] : Fin 2 → Nat) a + S4000x32.size a ≤ S4000x32.size a
  h_S4000x32 : 0 < S4000x32.numel
  shapeCasts_S4000x32_S4000x32 : S4000x32.ShapeCasts S4000x32
  inb_S32x256_S32x256_0_0 : ∀ a, (![0, 0] : Fin 2 → Nat) a + S32x256.size a ≤ S32x256.size a
  h_S32x256 : 0 < S32x256.numel
  shapeCasts_S32x256_S32x256 : S32x256.ShapeCasts S32x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4000x256 : S1x256.Broadcasts S4000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S4000x64_S4000x64_0_0 : ∀ a, (![0, 0] : Fin 2 → Nat) a + S4000x64.size a ≤ S4000x64.size a
  h_S4000x64 : 0 < S4000x64.numel
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S4000x32_S32x256_S4000x256_1_0_0_1_n_n_wf : DotDims.WF S4000x32 S32x256 S4000x256 [1] [0] [0] [1] [] []
  dot_S4000x256_S256x256_S4000x256_1_0_0_1_n_n_wf : DotDims.WF S4000x256 S256x256 S4000x256 [1] [0] [0] [1] [] []
  dot_S4000x256_S256x64_S4000x64_1_0_0_1_n_n_wf : DotDims.WF S4000x256 S256x64 S4000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x32.size a ≤ S100000x32.size a
  hwx0_0 : ∀ i : grid0.Coords, EltTy.bits .f32 = 32 ∨ (Rect.block (s := S100000x32) S4000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x32.size a ≤ S100000x32.size a
  hwx0_1 : ∀ i : grid0.Coords, EltTy.bits .f32 = 32 ∨ (Rect.block (s := S100000x32) S4000x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x256.size a ≤ S32x256.size a
  hwx0_2 : ∀ i : grid0.Coords, EltTy.bits .bf16 = 32 ∨ (Rect.block (s := S32x256) S32x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x256.size a ≤ S32x256.size a
  hwx0_3 : ∀ i : grid0.Coords, EltTy.bits .bf16 = 32 ∨ (Rect.block (s := S32x256) S32x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .bf16 = 32 ∨ (Rect.block (s := S256x256) S256x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x64.size a ≤ S256x64.size a
  hwx0_7 : ∀ i : grid0.Coords, EltTy.bits .bf16 = 32 ∨ (Rect.block (s := S256x64) S256x64.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4000x64.size a ≤ S100000x64.size a
  hwx0_9 : ∀ i : grid0.Coords, EltTy.bits .f32 = 32 ∨ (Rect.block (s := S100000x64) S4000x64.size (cc0_transform_9 i) (hinb0_9 i)).WholeWords (EltTy.packing .f32)

variable [Facts₀]

def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S4000x32_S32x256_S4000x256_1_0_0_1_n_n : DotDims S4000x32 S32x256 S4000x256 where
  lhsContracting := [1]
  rhsContracting := [0]
  lhsNonContracting := [0]
  rhsNonContracting := [1]
  lhsBatch := []
  rhsBatch := []
  wf := dot_S4000x32_S32x256_S4000x256_1_0_0_1_n_n_wf
def dot_S4000x256_S256x256_S4000x256_1_0_0_1_n_n : DotDims S4000x256 S256x256 S4000x256 where
  lhsContracting := [1]
  rhsContracting := [0]
  lhsNonContracting := [0]
  rhsNonContracting := [1]
  lhsBatch := []
  rhsBatch := []
  wf := dot_S4000x256_S256x256_S4000x256_1_0_0_1_n_n_wf
def dot_S4000x256_S256x64_S4000x64_1_0_0_1_n_n : DotDims S4000x256 S256x64 S4000x64 where
  lhsContracting := [1]
  rhsContracting := [0]
  lhsNonContracting := [0]
  rhsNonContracting := [1]
  lhsBatch := []
  rhsBatch := []
  wf := dot_S4000x256_S256x64_S4000x64_1_0_0_1_n_n_wf

abbrev win0_0 : Pipeline.Window sig grid0 :=
  Pipeline.Window.ofSpec (Memref.whole main_arg0) S4000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v16) S4000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v19) S32x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v22) S32x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v27) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v24) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v28) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_call0_v26) S256x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_call0_v29) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v0) S4000x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S100000x32 : Shape := ⟨2, ![100000, 32]⟩
abbrev S1600000 : Shape := ⟨1, ![1600000]⟩
abbrev S256x64 : Shape := ⟨2, ![256, 64]⟩
abbrev S256 : Shape := ⟨1, ![256]⟩
abbrev S256x256 : Shape := ⟨2, ![256, 256]⟩
abbrev S64x256 : Shape := ⟨2, ![64, 256]⟩
abbrev S64 : Shape := ⟨1, ![64]⟩
abbrev S2x1600000 : Shape := ⟨2, ![2, 1600000]⟩
abbrev S1x1600000 : Shape := ⟨2, ![1, 1600000]⟩
abbrev S_ : Shape := ⟨0, ![]⟩
abbrev S1600000x1 : Shape := ⟨2, ![1600000, 1]⟩
abbrev S1600000x32 : Shape := ⟨2, ![1600000, 32]⟩
abbrev S100000x64 : Shape := ⟨2, ![100000, 64]⟩
abbrev S100000x256 : Shape := ⟨2, ![100000, 256]⟩
abbrev S1x256 : Shape := ⟨2, ![1, 256]⟩
abbrev S1x64 : Shape := ⟨2, ![1, 64]⟩

abbrev nBuf : Space → Nat
  | .hbm => 75
  | .vmem => 0
  | .smem => 0
  | _ => 0

abbrev bufTy : (tb : Table) → Fin (tcTables nBuf tb) → BufTy
  | .hbm, ⟨0, _⟩ => ⟨S100000x32, .f32⟩
  | .hbm, ⟨1, _⟩ => ⟨S1600000, .f32⟩
  | .hbm, ⟨2, _⟩ => ⟨S256x64, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S64x256, .f32⟩
  | .hbm, ⟨7, _⟩ => ⟨S64, .f32⟩
  | .hbm, ⟨8, _⟩ => ⟨S2x1600000, .i32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x32, .f32⟩
  | .hbm, ⟨22, _⟩ => ⟨S1600000x1, .f32⟩
  | .hbm, ⟨23, _⟩ => ⟨S1600000x32, .f32⟩
  | .hbm, ⟨24, _⟩ => ⟨S1600000x32, .f32⟩
  | .hbm, ⟨25, _⟩ => ⟨S_, .f32⟩
  | .hbm, ⟨26, _⟩ => ⟨S100000x32, .f32⟩
  | .hbm, ⟨27, _⟩ => ⟨S1600000x1, .i32⟩
  | .hbm, ⟨28, _⟩ => ⟨S100000x32, .f32⟩
  | .hbm, ⟨29, _⟩ => ⟨S100000x64, .f32⟩
  | .hbm, ⟨30, _⟩ => ⟨S64x256, .f32⟩
  | .hbm, ⟨31, _⟩ => ⟨S100000x256, .f32⟩
  | .hbm, ⟨32, _⟩ => ⟨S1x256, .f32⟩
  | .hbm, ⟨33, _⟩ => ⟨S100000x256, .f32⟩
  | .hbm, ⟨34, _⟩ => ⟨S100000x256, .f32⟩
  | .hbm, ⟨35, _⟩ => ⟨S_, .f32⟩
  | .hbm, ⟨36, _⟩ => ⟨S100000x256, .f32⟩
  | .hbm, ⟨37, _⟩ => ⟨S100000x256, .i1⟩
  | .hbm, ⟨38, _⟩ => ⟨S_, .f32⟩
  | .hbm, ⟨39, _⟩ => ⟨S100000x256, .f32⟩
  | .hbm, ⟨40, _⟩ => ⟨S100000x256, .i1⟩
  | .hbm, ⟨41, _⟩ => ⟨S_, .f32⟩
  | .hbm, ⟨42, _⟩ => ⟨S_, .f32⟩
  | .hbm, ⟨43, _⟩ => ⟨S100000x256, .f32⟩
  | .hbm, ⟨44, _⟩ => ⟨S100000x256, .f32⟩
  | .hbm, ⟨45, _⟩ => ⟨S100000x256, .f32⟩
  | .hbm, ⟨46, _⟩ => ⟨S_, .f32⟩
  | .hbm, ⟨47, _⟩ => ⟨S100000x256, .f32⟩
  | .hbm, ⟨48, _⟩ => ⟨S100000x256, .f32⟩
  | .hbm, ⟨49, _⟩ => ⟨S100000x256, .f32⟩
  | .hbm, ⟨50, _⟩ => ⟨S256x256, .f32⟩
  | .hbm, ⟨51, _⟩ => ⟨S100000x256, .f32⟩
  | .hbm, ⟨52, _⟩ => ⟨S1x256, .f32⟩
  | .hbm, ⟨53, _⟩ => ⟨S100000x256, .f32⟩
  | .hbm, ⟨54, _⟩ => ⟨S100000x256, .f32⟩
  | .hbm, ⟨55, _⟩ => ⟨S_, .f32⟩
  | .hbm, ⟨56, _⟩ => ⟨S100000x256, .f32⟩
  | .hbm, ⟨57, _⟩ => ⟨S100000x256, .i1⟩
  | .hbm, ⟨58, _⟩ => ⟨S_, .f32⟩
  | .hbm, ⟨59, _⟩ => ⟨S100000x256, .f32⟩
  | .hbm, ⟨60, _⟩ => ⟨S100000x256, .i1⟩
  | .hbm, ⟨61, _⟩ => ⟨S_, .f32⟩
  | .hbm, ⟨62, _⟩ => ⟨S_, .f32⟩
  | .hbm, ⟨63, _⟩ => ⟨S100000x256, .f32⟩
  | .hbm, ⟨64, _⟩ => ⟨S100000x256, .f32⟩
  | .hbm, ⟨65, _⟩ => ⟨S100000x256, .f32⟩
  | .hbm, ⟨66, _⟩ => ⟨S_, .f32⟩
  | .hbm, ⟨67, _⟩ => ⟨S100000x256, .f32⟩
  | .hbm, ⟨68, _⟩ => ⟨S100000x256, .f32⟩
  | .hbm, ⟨69, _⟩ => ⟨S100000x256, .f32⟩
  | .hbm, ⟨70, _⟩ => ⟨S256x64, .f32⟩
  | .hbm, ⟨71, _⟩ => ⟨S100000x64, .f32⟩
  | .hbm, ⟨72, _⟩ => ⟨S1x64, .f32⟩
  | .hbm, ⟨73, _⟩ => ⟨S100000x64, .f32⟩
  | .hbm, ⟨74, _⟩ => ⟨S100000x64, .f32⟩
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_call0_cst : Ref sig .tc := ⟨.hbm, 35, rfl⟩
abbrev main_call0_v0 : Ref sig .tc := ⟨.hbm, 36, rfl⟩
abbrev main_call0_v1 : Ref sig .tc := ⟨.hbm, 37, rfl⟩
abbrev main_call0_cst_0 : Ref sig .tc := ⟨.hbm, 38, rfl⟩
abbrev main_call0_v2 : Ref sig .tc := ⟨.hbm, 39, rfl⟩
abbrev main_call0_v3 : Ref sig .tc := ⟨.hbm, 40, rfl⟩
abbrev main_call0_cst_1 : Ref sig .tc := ⟨.hbm, 41, rfl⟩
abbrev main_call0_call0_v0 : Ref sig .tc := ⟨.hbm, 42, rfl⟩
abbrev main_call0_call0_v1 : Ref sig .tc := ⟨.hbm, 43, rfl⟩
abbrev main_call0_v4 : Ref sig .tc := ⟨.hbm, 44, rfl⟩
abbrev main_call0_v5 : Ref sig .tc := ⟨.hbm, 45, rfl⟩
abbrev main_call0_cst_2 : Ref sig .tc := ⟨.hbm, 46, rfl⟩
abbrev main_call0_v6 : Ref sig .tc := ⟨.hbm, 47, rfl⟩
abbrev main_call0_v7 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_call1_cst : Ref sig .tc := ⟨.hbm, 55, rfl⟩
abbrev main_call1_v0 : Ref sig .tc := ⟨.hbm, 56, rfl⟩
abbrev main_call1_v1 : Ref sig .tc := ⟨.hbm, 57, rfl⟩
abbrev main_call1_cst_0 : Ref sig .tc := ⟨.hbm, 58, rfl⟩
abbrev main_call1_v2 : Ref sig .tc := ⟨.hbm, 59, rfl⟩
abbrev main_call1_v3 : Ref sig .tc := ⟨.hbm, 60, rfl⟩
abbrev main_call1_cst_1 : Ref sig .tc := ⟨.hbm, 61, rfl⟩
abbrev main_call1_call0_v0 : Ref sig .tc := ⟨.hbm, 62, rfl⟩
abbrev main_call1_call0_v1 : Ref sig .tc := ⟨.hbm, 63, rfl⟩
abbrev main_call1_v4 : Ref sig .tc := ⟨.hbm, 64, rfl⟩
abbrev main_call1_v5 : Ref sig .tc := ⟨.hbm, 65, rfl⟩
abbrev main_call1_cst_2 : Ref sig .tc := ⟨.hbm, 66, rfl⟩
abbrev main_call1_v6 : Ref sig .tc := ⟨.hbm, 67, rfl⟩
abbrev main_call1_v7 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  concatenates_S100000x32_S100000x32_S100000x64_d1 : Shape.Concatenates [S100000x32, S100000x32] S100000x64 1
  transposes_S256x64_S64x256_1_0 : S256x64.Transposes [1, 0] S64x256
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  transposes_S256x256_S256x256_1_0 : S256x256.Transposes [1, 0] S256x256
  transposes_S64x256_S256x64_1_0 : S64x256.Transposes [1, 0] S256x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S100000x64_S64x256_S100000x256_1_0_0_1_n_n_wf : DotDims.WF S100000x64 S64x256 S100000x256 [1] [0] [0] [1] [] []
  dot_S100000x256_S256x256_S100000x256_1_0_0_1_n_n_wf : DotDims.WF S100000x256 S256x256 S100000x256 [1] [0] [0] [1] [] []
  dot_S100000x256_S256x64_S100000x64_1_0_0_1_n_n_wf : DotDims.WF S100000x256 S256x64 S100000x64 [1] [0] [0] [1] [] []

variable [Facts₀]

def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S100000x64_S64x256_S100000x256_1_0_0_1_n_n : DotDims S100000x64 S64x256 S100000x256 where
  lhsContracting := [1]
  rhsContracting := [0]
  lhsNonContracting := [0]
  rhsNonContracting := [1]
  lhsBatch := []
  rhsBatch := []
  wf := dot_S100000x64_S64x256_S100000x256_1_0_0_1_n_n_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf

class Facts : Prop extends Facts₀ where

variable [Facts]
-- ==== Proof.LibElu.lean ====
/-
  The exponential linear unit, in two spellings, over the extended reals.

  `elu y` is `y` above zero and `e^y - 1` otherwise (so `-1` at minus infinity and plus infinity at plus infinity).
  A kernel writes it as  select (y > 0) y (exp (min y 0) - 1):  the exponential is taken of `min y 0`, which is `y`
  itself wherever the second branch is chosen.  The host writes it as
  select (y > 0) y (1 * expm1 (select (y > 0) 0 y)):  `expm1 z` is `e^z - 1`, the inner select returns `y` wherever
  the outer one reads its second branch, and `1 * z = z` on every extended real.  Neither equation needs a finite `y`.
  The comparison arrays, the zeros and the ones are taken as arbitrary arrays that read `0` and `1` at every index, so
  that the lemmas apply however a program spells its constants.
-/
import Idealize.ShloMosaic.PureOps.Ideal
import Idealize.ShloMosaic.PureOps.Ideal.Laws
import Idealize.ShloMosaic.Lib.ValueIdx

noncomputable section

namespace Idealize.ShloMosaic.EluForms

open Idealize.ShloMosaic Idealize.ShloMosaic.ValueIdx

/-- The float word of `1.0` denotes one. -/
theorem ofBits_one_f32 : Ideal.ofBits .f32 0x3F800000#32 = 1 := by
  simp [Ideal.ofBits, Ideal.ieee, -EReal.coe_mul]; norm_num

/-- The exponential linear unit on the extended reals. -/
def elu (y : EReal) : EReal := if 0 < y then y else Ideal.exp y - 1

/-- The kernel's spelling at one element. -/
theorem kernel_scalar (y : EReal) :
    Scalar.select (Ideal.cmp .ogt y 0) y (Ideal.exp (min y 0) - 1) = elu y := by
  unfold elu Scalar.select Ideal.cmp
  by_cases h : 0 < y
  · simp [h]
  · simp [h, min_eq_left (not_lt.mp h)]

/-- The host's spelling at one element. -/
theorem host_scalar (y : EReal) :
    Scalar.select (Ideal.cmp .ogt y 0) y (1 * (Ideal.exp (Scalar.select (Ideal.cmp .ogt y 0) 0 y) - 1)) = elu y := by
  unfold elu Scalar.select Ideal.cmp
  by_cases h : 0 < y
  · simp [h]
  · simp [h]

variable {s : Shape}

/-- A kernel's exponential linear unit read at an index: the comparison and the minimum against arrays of zeros, the
    subtraction of an array of ones. -/
theorem kernel_apply (x z z' o : FVec Ideal s .f32) (hz : ∀ i, z i = 0) (hz' : ∀ i, z' i = 0) (ho : ∀ i, o i = 1)
    (i : s.Idx) :
    select (cmpf .ogt x z) x (subf (exp (minimumf x z')) o) i = elu (x i) := by
  show Scalar.select (Ideal.cmp .ogt (x i) (z i)) (x i) (Ideal.exp (min (x i) (z' i)) - o i) = _
  rw [hz, hz', ho]
  exact kernel_scalar (x i)

/-- The same with the comparison and the exponential handed over as separate arrays, as a kernel cut into parts
    passes them on. -/
theorem kernel_split_apply (x z z' o : FVec Ideal s .f32) (c : IVec s 1) (e : FVec Ideal s .f32)
    (hc : c = cmpf .ogt x z) (he : e = exp (minimumf x z'))
    (hz : ∀ i, z i = 0) (hz' : ∀ i, z' i = 0) (ho : ∀ i, o i = 1) (i : s.Idx) :
    select c x (subf e o) i = elu (x i) := by
  subst hc he
  exact kernel_apply x z z' o hz hz' ho i

/-- The host's exponential linear unit read at an index. -/
theorem host_apply (x z z' z'' o : FVec Ideal s .f32) (hz : ∀ i, z i = 0) (hz' : ∀ i, z' i = 0) (hz'' : ∀ i, z'' i = 0)
    (ho : ∀ i, o i = 1) (i : s.Idx) :
    select (cmpf .ogt x z) x (mulf o (Host.expm1 (select (cmpf .ogt x z') z'' x))) i = elu (x i) := by
  show Scalar.select (Ideal.cmp .ogt (x i) (z i)) (x i)
      (o i * (Ideal.exp (Scalar.select (Ideal.cmp .ogt (x i) (z' i)) (z'' i) (x i)) - 1)) = _
  rw [hz, hz', hz'', ho]
  exact host_scalar (x i)

/-- A scalar constant spread over a shape by the host reads the constant's word at every index. -/
theorem bcast_constant_apply (h : (⟨0, ![]⟩ : Shape).BroadcastsInDim s ![]) (b : BitVec 32) (i : s.Idx) :
    broadcastInDim s ![] h (constant (F := Ideal) ⟨0, ![]⟩ .f32 b) i = Ideal.ofBits .f32 b := rfl

end Idealize.ShloMosaic.EluForms

end
-- ==== Proof.Spec.lean ====
/-
  The network this certificate is about, as one function of its arrays over the extended reals.

  Each node `p` carries a feature row `x p` (32 numbers) and an aggregated message row `msg p` (32 numbers).
  The two rows side by side, 64 numbers, go through three dense layers with weights `Win` (256 × 64), `Wh`
  (256 × 256), `Wout` (64 × 256), stored output-major, and biases `bin`, `bh`, `bout`:

      h1 (p, j) = elu ((∑ k < 32, x (p, k) · Win (j, k) + ∑ k < 32, msg (p, k) · Win (j, 32 + k)) + bin j)
      h2 (p, j) = elu (∑ k < 256, h1 (p, k) · Wh (j, k) + bh j)
      out (p, q) = ∑ k < 256, h2 (p, k) · Wout (q, k) + bout q

  The first layer's sum over the 64 columns is written as its two halves: a finite sum in a commutative monoid
  splits so with no condition on the terms (`sum_halves`).  Row `p` of the result depends on row `p` of `x` and of
  `msg` only (`mlp_rows`), which is why the rows may be processed in blocks of any size.
-/
import proofs.«167154_j23802708755058_2_alg».proof.Proof.LibElu
import Idealize.ShloMosaic.Lib.ValueIdx
import Mathlib.Algebra.BigOperators.Fin

noncomputable section

namespace Cert.GraphMlp

open Idealize.ShloMosaic Idealize.ShloMosaic.ValueIdx Idealize.ShloMosaic.EluForms

/-- Column `k` of the left half of a 64-wide row. -/
abbrev lo (k : Fin 32) : Fin 64 := ⟨k.val, by omega⟩
/-- Column `k` of the right half of a 64-wide row. -/
abbrev hi (k : Fin 32) : Fin 64 := ⟨32 + k.val, by omega⟩

/-- A sum over 64 columns is the sum over the left half plus the sum over the right half. -/
theorem sum_halves (f : Fin 64 → EReal) : ∑ k : Fin 64, f k = ∑ k : Fin 32, f (lo k) + ∑ k : Fin 32, f (hi k) :=
  Fin.sum_univ_add (a := 32) (b := 32) f

variable {M M' : ℕ}

/-- The first layer. -/
def hidden1 (x msg : (⟨2, ![M, 32]⟩ : Shape).Idx → EReal) (Win : (⟨2, ![256, 64]⟩ : Shape).Idx → EReal)
    (bin : (⟨1, ![256]⟩ : Shape).Idx → EReal) : (⟨2, ![M, 256]⟩ : Shape).Idx → EReal := fun i =>
  elu ((∑ k : Fin 32, x (ix2 (i 0) k) * Win (ix2 (i 1) (lo k)) + ∑ k : Fin 32, msg (ix2 (i 0) k) * Win (ix2 (i 1) (hi k)))
    + bin (ix1 (i 1)))

/-- The second layer. -/
def hidden2 (h : (⟨2, ![M, 256]⟩ : Shape).Idx → EReal) (Wh : (⟨2, ![256, 256]⟩ : Shape).Idx → EReal)
    (bh : (⟨1, ![256]⟩ : Shape).Idx → EReal) : (⟨2, ![M, 256]⟩ : Shape).Idx → EReal := fun i =>
  elu (∑ k : Fin 256, h (ix2 (i 0) k) * Wh (ix2 (i 1) k) + bh (ix1 (i 1)))

/-- The output layer. -/
def outLayer (h : (⟨2, ![M, 256]⟩ : Shape).Idx → EReal) (Wout : (⟨2, ![64, 256]⟩ : Shape).Idx → EReal)
    (bout : (⟨1, ![64]⟩ : Shape).Idx → EReal) : (⟨2, ![M, 64]⟩ : Shape).Idx → EReal := fun i =>
  ∑ k : Fin 256, h (ix2 (i 0) k) * Wout (ix2 (i 1) k) + bout (ix1 (i 1))

/-- The three layers composed. -/
def mlp (x msg : (⟨2, ![M, 32]⟩ : Shape).Idx → EReal) (Win : (⟨2, ![256, 64]⟩ : Shape).Idx → EReal)
    (bin : (⟨1, ![256]⟩ : Shape).Idx → EReal) (Wh : (⟨2, ![256, 256]⟩ : Shape).Idx → EReal)
    (bh : (⟨1, ![256]⟩ : Shape).Idx → EReal) (Wout : (⟨2, ![64, 256]⟩ : Shape).Idx → EReal)
    (bout : (⟨1, ![64]⟩ : Shape).Idx → EReal) : (⟨2, ![M, 64]⟩ : Shape).Idx → EReal :=
  outLayer (hidden2 (hidden1 x msg Win bin) Wh bh) Wout bout

theorem hidden1_apply (x msg : (⟨2, ![M, 32]⟩ : Shape).Idx → EReal) (Win : (⟨2, ![256, 64]⟩ : Shape).Idx → EReal)
    (bin : (⟨1, ![256]⟩ : Shape).Idx → EReal) (p : Fin M) (j : Fin 256) :
    hidden1 x msg Win bin (ix2 p j)
      = elu ((∑ k : Fin 32, x (ix2 p k) * Win (ix2 j (lo k)) + ∑ k : Fin 32, msg (ix2 p k) * Win (ix2 j (hi k)))
          + bin (ix1 j)) := rfl

theorem hidden2_apply (h : (⟨2, ![M, 256]⟩ : Shape).Idx → EReal) (Wh : (⟨2, ![256, 256]⟩ : Shape).Idx → EReal)
    (bh : (⟨1, ![256]⟩ : Shape).Idx → EReal) (p : Fin M) (j : Fin 256) :
    hidden2 h Wh bh (ix2 p j) = elu (∑ k : Fin 256, h (ix2 p k) * Wh (ix2 j k) + bh (ix1 j)) := rfl

theorem outLayer_apply (h : (⟨2, ![M, 256]⟩ : Shape).Idx → EReal) (Wout : (⟨2, ![64, 256]⟩ : Shape).Idx → EReal)
    (bout : (⟨1, ![64]⟩ : Shape).Idx → EReal) (p : Fin M) (q : Fin 64) :
    outLayer h Wout bout (ix2 p q) = ∑ k : Fin 256, h (ix2 p k) * Wout (ix2 q k) + bout (ix1 q) := rfl

/-- Row `p` of the result is a function of row `p` of the features and of the messages: two inputs, of any numbers of
    rows, that agree on a row give the same output row. -/
theorem mlp_rows (x msg : (⟨2, ![M, 32]⟩ : Shape).Idx → EReal) (x' msg' : (⟨2, ![M', 32]⟩ : Shape).Idx → EReal)
    (Win : (⟨2, ![256, 64]⟩ : Shape).Idx → EReal) (bin : (⟨1, ![256]⟩ : Shape).Idx → EReal)
    (Wh : (⟨2, ![256, 256]⟩ : Shape).Idx → EReal) (bh : (⟨1, ![256]⟩ : Shape).Idx → EReal)
    (Wout : (⟨2, ![64, 256]⟩ : Shape).Idx → EReal) (bout : (⟨1, ![64]⟩ : Shape).Idx → EReal)
    (p : Fin M) (p' : Fin M') (hx : ∀ k, x (ix2 p k) = x' (ix2 p' k)) (hm : ∀ k, msg (ix2 p k) = msg' (ix2 p' k))
    (q : Fin 64) :
    mlp x msg Win bin Wh bh Wout bout (ix2 p q) = mlp x' msg' Win bin Wh bh Wout bout (ix2 p' q) := by
  have h1 : ∀ j, hidden1 x msg Win bin (ix2 p j) = hidden1 x' msg' Win bin (ix2 p' j) := fun j => by
    rw [hidden1_apply, hidden1_apply]; simp only [hx, hm]
  have h2 : ∀ j, hidden2 (hidden1 x msg Win bin) Wh bh (ix2 p j) = hidden2 (hidden1 x' msg' Win bin) Wh bh (ix2 p' j) :=
    fun j => by rw [hidden2_apply, hidden2_apply]; simp only [h1]
  unfold mlp
  rw [outLayer_apply, outLayer_apply]; simp only [h2]

end Cert.GraphMlp

end
-- ==== Proof.LibPlainDot.lean ====
/-
  A plain matrix product read at an index, over the extended reals.

  For the dimension numbers of an `M×K` by `K×N` product (contract the left operand's axis 1 with the right operand's
  axis 0, no batch axis) the contraction index is one coordinate `k < K`, the left operand is read at `(p, k)` and the
  right one at `(k, q)`. So both a kernel's matmul into a zero accumulator and a host `dot_general` are, at `(p, q)`,
  the sum over `k : Fin K` of `lhs (p, k) * rhs (k, q)` — one and the same extended real, whatever the blocking.
-/
import Idealize.ShloMosaic.PureOps.Ideal
import Idealize.ShloMosaic.PureOps.Ideal.Laws
import Idealize.ShloMosaic.Lib.ValueIdx

noncomputable section

namespace Idealize.ShloMosaic.PlainDot

open Idealize.ShloMosaic Idealize.ShloMosaic.ValueIdx

/-- The left operand's index of a plain product at output `(p, q)` and contraction position `k` is `(p, k)`. -/
theorem lhsIdx_plain (M K N : ℕ) (p : Fin M) (q : Fin N) (k : Fin K) :
    (DotDims.plain M K N).lhsIdx (ix2 p q) ((contrEquiv1 (DotDims.plain M K N) K rfl rfl).symm k) = ix2 p k := by
  funext a
  apply Fin.ext
  match a with
  | ⟨0, _⟩ => rfl
  | ⟨1, _⟩ => rfl

/-- The right operand's index of a plain product at output `(p, q)` and contraction position `k` is `(k, q)`. -/
theorem rhsIdx_plain (M K N : ℕ) (p : Fin M) (q : Fin N) (k : Fin K) :
    (DotDims.plain M K N).rhsIdx (ix2 p q) ((contrEquiv1 (DotDims.plain M K N) K rfl rfl).symm k) = ix2 k q := by
  funext a
  apply Fin.ext
  match a with
  | ⟨0, _⟩ => rfl
  | ⟨1, _⟩ => rfl

/-- The contraction sum of a plain product, re-indexed by the one contracted coordinate. -/
theorem sum_plain (M K N : ℕ) (a : (⟨2, ![M, K]⟩ : Shape).Idx → EReal) (w : (⟨2, ![K, N]⟩ : Shape).Idx → EReal)
    (p : Fin M) (q : Fin N) :
    ∑ k : (DotDims.plain M K N).contr.Idx,
        a ((DotDims.plain M K N).lhsIdx (ix2 p q) k) * w ((DotDims.plain M K N).rhsIdx (ix2 p q) k)
      = ∑ k : Fin K, a (ix2 p k) * w (ix2 k q) := by
  rw [← Equiv.sum_comp (contrEquiv1 (DotDims.plain M K N) K rfl rfl).symm]
  exact Finset.sum_congr rfl fun k _ => by rw [lhsIdx_plain, rhsIdx_plain]

/-- A kernel's matmul into the zero accumulator, with plain dimension numbers, read at `(p, q)`. -/
theorem matmul_zero_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) := by
  subst hd
  rw [Ideal.matmul_constant_zero_apply]
  exact sum_plain M K N lhs rhs p q

/-- A host `dot_general` with plain dimension numbers read at `(p, q)`. -/
theorem dotGeneral_apply {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (lhs : FVec Ideal ⟨2, ![M, K]⟩ φ₁) (rhs : FVec Ideal ⟨2, ![K, N]⟩ φ₂) (p : Fin M) (q : Fin N) :
    FloatOps.dotGeneral d prec sched lhs rhs (ix2 p q) = ∑ k : Fin K, lhs (ix2 p k) * rhs (ix2 k q) := by
  subst hd
  rw [Ideal.dotGeneral_apply]
  exact sum_plain M K N lhs rhs p q

end Idealize.ShloMosaic.PlainDot

end
-- ==== Proof.KernelBody.lean ====
/-
  What one grid point's body computes, entry by entry, over the extended reals.

  The body loads a block of 4000 feature rows `x0` and the matching block of message rows `x1`, the two halves of
  the first weight matrix already transposed (`x2`, `x3` : 32 × 256), the transposed second and third weight matrices
  (`x5` : 256 × 256, `x7` : 256 × 64) and the three biases as one-row arrays (`x4`, `x6`, `x8`), and stores

      ∑ k, elu (∑ j, elu ((∑ i, x0 (r, i) · x2 (i, j) + ∑ i, x1 (r, i) · x3 (i, j)) + x4 (0, j)) · x5 (j, k) + x6 (0, k))
             · x7 (k, q) + x8 (0, q)

  at `(r, q)`.  A matrix product into a zero accumulator is the plain sum over the contracted coordinate, a change of
  float format is the identity, a one-row array spread over the rows reads its one row, and the select / compare /
  exponential of the activation is `elu` entry by entry.  When the loaded weights are the transposes of `Win`'s two
  halves, of `Wh` and of `Wout`, and the rows the biases, this is the network of the specification on a block of
  4000 rows (`payload_eq_mlp`).
-/
import proofs.«167154_j23802708755058_2_alg».proof.Proof.Gen.KernelIdeal.Skeleton
import proofs.«167154_j23802708755058_2_alg».proof.Proof.Spec
import proofs.«167154_j23802708755058_2_alg».proof.Proof.LibPlainDot
import Idealize.ShloMosaic.Lib.ValueLayout
import Idealize.ShloMosaic.Lib.Pipeline.Value

noncomputable section

namespace Cert.KernelIdeal.Body

open Cert.KernelIdeal Cert.KernelIdeal.Gen Idealize.ShloMosaic Idealize.ShloMosaic.ValueIdx Idealize.ShloMosaic.EluForms Cert.GraphMlp

/-- The activation as the body spells it, on a block of 4000 × 256 pre-activations, is `elu` entry by entry. -/
theorem elu_block (x : FVec Ideal S4000x256 .f32) (i : S4000x256.Idx) :
    select (cmpf .ogt x (broadcast S4000x256 (Scalar.ofBits .f32 0x00000000#32))) x
      (subf (exp (minimumf x (broadcast S4000x256 (Scalar.ofBits .f32 0x00000000#32))))
        (broadcast S4000x256 (Scalar.ofBits .f32 0x3F800000#32))) i = elu (x i) :=
  kernel_apply x _ _ _ (fun _ => Ideal.ofBits_zero_f32) (fun _ => Ideal.ofBits_zero_f32) (fun _ => ofBits_one_f32) i

/-- The second layer's pre-activation at `(r, j)`. -/
theorem pay2_apply (x0 x1 : FVec Ideal S4000x32 .f32) (x2 x3 : FVec Ideal S32x256 .bf16) (x4 : FVec Ideal S1x256 .f32)
    (x5 : FVec Ideal S256x256 .bf16) (x6 : FVec Ideal S1x256 .f32) (r : Fin 4000) (j : Fin 256) :
    k0_pay2 (F := Ideal) x0 x1 x2 x3 x4 x5 x6 (ix2 r j)
      = ∑ k : Fin 256, elu ((∑ i : Fin 32, x0 (ix2 r i) * x2 (ix2 i k) + ∑ i : Fin 32, x1 (ix2 r i) * x3 (ix2 i k))
            + x4 (ix2 (0 : Fin 1) k)) * x5 (ix2 k j) + x6 (ix2 (0 : Fin 1) j) := by
  unfold k0_pay2
  simp only [addf_apply, shapeCast_self, truncf_apply,
    PlainDot.matmul_zero_apply dot_S4000x256_S256x256_S4000x256_1_0_0_1_n_n rfl,
    PlainDot.matmul_zero_apply dot_S4000x32_S32x256_S4000x256_1_0_0_1_n_n rfl,
    broadcastTo_1b_ab_apply, elu_block]

/-- The stored value at `(r, q)` from the second layer's pre-activation. -/
theorem pay1_apply (x0 x1 : FVec Ideal S4000x32 .f32) (x2 x3 : FVec Ideal S32x256 .bf16) (x4 : FVec Ideal S1x256 .f32)
    (x5 : FVec Ideal S256x256 .bf16) (x6 : FVec Ideal S1x256 .f32) (x7 : FVec Ideal S256x64 .bf16) (x8 : FVec Ideal S1x64 .f32)
    (r : Fin 4000) (q : Fin 64) :
    k0_pay1 (F := Ideal) (k0_pay2 (F := Ideal) x0 x1 x2 x3 x4 x5 x6) (k0_pay3 (F := Ideal) x0 x1 x2 x3 x4 x5 x6) (k0_pay4 (F := Ideal) x0 x1 x2 x3 x4 x5 x6) x7 x8 (ix2 r q)
      = ∑ k : Fin 256, elu (k0_pay2 (F := Ideal) x0 x1 x2 x3 x4 x5 x6 (ix2 r k)) * x7 (ix2 k q) + x8 (ix2 (0 : Fin 1) q) := by
  unfold k0_pay1 k0_pay3 k0_pay4
  simp only [addf_apply, shapeCast_self, truncf_apply,
    PlainDot.matmul_zero_apply dot_S4000x256_S256x64_S4000x64_1_0_0_1_n_n rfl,
    broadcastTo_1b_ab_apply, elu_block]

/-- With the loaded weights the transposes of the network's and the loaded rows its biases, the stored block is the
    network on the loaded rows. -/
theorem payload_eq_mlp (x0 x1 : FVec Ideal S4000x32 .f32) (x2 x3 : FVec Ideal S32x256 .bf16) (x4 : FVec Ideal S1x256 .f32)
    (x5 : FVec Ideal S256x256 .bf16) (x6 : FVec Ideal S1x256 .f32) (x7 : FVec Ideal S256x64 .bf16) (x8 : FVec Ideal S1x64 .f32)
    (Win : (⟨2, ![256, 64]⟩ : Shape).Idx → EReal) (bin : (⟨1, ![256]⟩ : Shape).Idx → EReal)
    (Wh : (⟨2, ![256, 256]⟩ : Shape).Idx → EReal) (bh : (⟨1, ![256]⟩ : Shape).Idx → EReal)
    (Wout : (⟨2, ![64, 256]⟩ : Shape).Idx → EReal) (bout : (⟨1, ![64]⟩ : Shape).Idx → EReal)
    (h2 : ∀ (k : Fin 32) (j : Fin 256), x2 (ix2 k j) = Win (ix2 j (lo k)))
    (h3 : ∀ (k : Fin 32) (j : Fin 256), x3 (ix2 k j) = Win (ix2 j (hi k)))
    (h4 : ∀ j : Fin 256, x4 (ix2 (0 : Fin 1) j) = bin (ix1 j))
    (h5 : ∀ k j : Fin 256, x5 (ix2 k j) = Wh (ix2 j k))
    (h6 : ∀ j : Fin 256, x6 (ix2 (0 : Fin 1) j) = bh (ix1 j))
    (h7 : ∀ (k : Fin 256) (q : Fin 64), x7 (ix2 k q) = Wout (ix2 q k))
    (h8 : ∀ q : Fin 64, x8 (ix2 (0 : Fin 1) q) = bout (ix1 q))
    (r : Fin 4000) (q : Fin 64) :
    k0_pay1 (F := Ideal) (k0_pay2 (F := Ideal) x0 x1 x2 x3 x4 x5 x6) (k0_pay3 (F := Ideal) x0 x1 x2 x3 x4 x5 x6) (k0_pay4 (F := Ideal) x0 x1 x2 x3 x4 x5 x6) x7 x8 (ix2 r q)
      = mlp (M := 4000) x0 x1 Win bin Wh bh Wout bout (ix2 r q) := by
  rw [pay1_apply]
  unfold mlp
  rw [outLayer_apply]
  simp only [pay2_apply, hidden2_apply, hidden1_apply, h2, h3, h4, h5, h6, h7, h8]

end Cert.KernelIdeal.Body
end
-- ==== Proof.KernelArrays.lean ====
/-
  The arrays the kernel's windows stage, as the host operations before the launch leave them, read at an index.

  Before the launch the host computes the aggregated messages (`msgOf`: gather the source rows, scale each by its edge
  weight, add the scaled rows into their target rows) and lays the parameters out for the body: the left and the right
  half of `Win` (256 × 64) sliced out and transposed to 32 × 256, `Wh` and `Wout` transposed, each narrowed in
  float format (the identity on the extended reals), and the three biases reshaped to one-row arrays.  So, entry by entry,

      left (k, j) = Win (j, k)        right (k, j) = Win (j, 32 + k)
      whT (k, j) = Wh (j, k)          woutT (k, q) = Wout (q, k)        row b (0, j) = b j.
-/
import proofs.«167154_j23802708755058_2_alg».proof.Proof.Gen.KernelIdeal.Frame
import proofs.«167154_j23802708755058_2_alg».proof.Proof.Spec
import Idealize.ShloMosaic.Lib.ValueLayout
import Idealize.ShloMosaic.Lib.Pipeline.Value
import Idealize.ShloMosaic.Lib.StableHlo.Run

noncomputable section

namespace Cert.KernelIdeal.Arrays

open Cert.KernelIdeal Cert.KernelIdeal.Gen Idealize.ShloMosaic Idealize.ShloMosaic.TcCoe Idealize.SL.Sem
open Idealize.ShloMosaic.StableHlo Idealize.ShloMosaic.ValueIdx Cert.GraphMlp

/-- The aggregated messages as a function of the features `x`, the edge weights `ew` and the edge list `ei` (row 0
    the source nodes, row 1 the target nodes): a negative source index counts from the end; row `src e` of `x` times
    `ew e` is added into row `dst e` of an array of zeros. -/
def msgOf {F : FTy → Type} [FloatOps F] (x : FVec F S100000x32 .f32) (ew : FVec F S1600000 .f32) (ei : IVec S2x1600000 32) :
    FVec F S100000x32 .f32 :=
  Host.scatterAdd scatter_S100000x32_S1600000x1_S1600000x32_1_0_0_1
    (broadcastInDim S100000x32 ![] bcast_S_S100000x32 (constant S_ .f32 0x00000000#32))
    (broadcastInDim S1600000x1 ![0] bcast_S1600000_S1600000x1_0
      (shapeCast S1600000 (extractStridedSlice S1x1600000 ![1, 0] ei slices_S2x1600000_S1x1600000_1_0) shapeCasts_S1x1600000_S1600000))
    (mulf
      (Host.gather gather_S100000x32_S1600000x1_S1600000x32_1_0_n_n_0_1_132 x
        (broadcastInDim S1600000x1 ![0] bcast_S1600000_S1600000x1_0
          (select
            (cmpi .slt
              (shapeCast S1600000 (extractStridedSlice S1x1600000 ![0, 0] ei slices_S2x1600000_S1x1600000_0_0) shapeCasts_S1x1600000_S1600000)
              (broadcastInDim S1600000 ![] bcast_S_S1600000 (constantI S_ 32 0#32)))
            (addi
              (shapeCast S1600000 (extractStridedSlice S1x1600000 ![0, 0] ei slices_S2x1600000_S1x1600000_0_0) shapeCasts_S1x1600000_S1600000)
              (broadcastInDim S1600000 ![] bcast_S_S1600000 (constantI S_ 32 100000#32)))
            (shapeCast S1600000 (extractStridedSlice S1x1600000 ![0, 0] ei slices_S2x1600000_S1x1600000_0_0) shapeCasts_S1x1600000_S1600000))))
      (broadcastInDim S1600000x32 ![0, 1] bcast_S1600000x1_S1600000x32_0_1
        (broadcastInDim S1600000x1 ![0] bcast_S1600000_S1600000x1_0 ew)))

variable (m : (ℓ : Loc nD τ sig) → Buf (Elt Ideal) ℓ) (c : Dev nD)

set_option maxHeartbeats 1000000 in
/-- Window 1's array: the aggregated messages of the argument arrays. -/
theorem V_msg : (V m c main_call0_v16 : S100000x32.Idx → EReal)
    = msgOf (F := Ideal) (m ((c : Thread nD τ).loc main_arg0)) (m ((c : Thread nD τ).loc main_arg1)) (m ((c : Thread nD τ).loc main_arg8)) := by
  dsimp only [Gen.V, Gen.hostOps0]
  after_results_simp
  rfl

theorem V_left : (V m c main_call0_v19 : S32x256.Idx → EReal)
    = truncf (F := Ideal) .bf16 (transpose S32x256 [1, 0] (extractStridedSlice S256x32 ![0, 0] (m ((c : Thread nD τ).loc main_arg2)) slices_S256x64_S256x32_0_0) transposes_S256x32_S32x256_1_0) bitsLt_bf16_f32 := by
  dsimp only [Gen.V, Gen.hostOps0]
  after_results
  rfl

theorem V_right : (V m c main_call0_v22 : S32x256.Idx → EReal)
    = truncf (F := Ideal) .bf16 (transpose S32x256 [1, 0] (extractStridedSlice S256x32 ![0, 32] (m ((c : Thread nD τ).loc main_arg2)) slices_S256x64_S256x32_0_32) transposes_S256x32_S32x256_1_0) bitsLt_bf16_f32 := by
  dsimp only [Gen.V, Gen.hostOps0]
  after_results
  rfl

theorem V_whT : (V m c main_call0_v24 : S256x256.Idx → EReal)
    = truncf (F := Ideal) .bf16 (transpose S256x256 [1, 0] (m ((c : Thread nD τ).loc main_arg4)) transposes_S256x256_S256x256_1_0) bitsLt_bf16_f32 := by
  dsimp only [Gen.V, Gen.hostOps0]
  after_results
  rfl

theorem V_woutT : (V m c main_call0_v26 : S256x64.Idx → EReal)
    = truncf (F := Ideal) .bf16 (transpose S256x64 [1, 0] (m ((c : Thread nD τ).loc main_arg6)) transposes_S64x256_S256x64_1_0) bitsLt_bf16_f32 := by
  dsimp only [Gen.V, Gen.hostOps0]
  after_results
  rfl

theorem V_binRow : (V m c main_call0_v27 : S1x256.Idx → EReal)
    = shapeCast S1x256 (m ((c : Thread nD τ).loc main_arg3)) shapeCasts_S256_S1x256 := by
  dsimp only [Gen.V, Gen.hostOps0]
  after_results
  rfl

theorem V_bhRow : (V m c main_call0_v28 : S1x256.Idx → EReal)
    = shapeCast S1x256 (m ((c : Thread nD τ).loc main_arg5)) shapeCasts_S256_S1x256 := by
  dsimp only [Gen.V, Gen.hostOps0]
  after_results
  rfl

theorem V_boutRow : (V m c main_call0_v29 : S1x64.Idx → EReal)
    = shapeCast S1x64 (m ((c : Thread nD τ).loc main_arg7)) shapeCasts_S64_S1x64 := by
  dsimp only [Gen.V, Gen.hostOps0]
  after_results
  rfl

/-- The staged left half of the first weights at `(k, j)` is `Win (j, k)`. -/
theorem left_apply (k : Fin 32) (j : Fin 256) :
    (V m c main_call0_v19 : S32x256.Idx → EReal) (ix2 k j) = (m ((c : Thread nD τ).loc main_arg2) : S256x64.Idx → EReal) (ix2 j (lo k)) := by
  rw [V_left, truncf_apply, transpose_ix2_apply]
  exact extractStridedSlice_apply _ _ _ _ (ix2 j (lo k)) fun a => match a with | ⟨0, _⟩ => (Nat.zero_add _).symm | ⟨1, _⟩ => (Nat.zero_add _).symm

/-- The staged right half of the first weights at `(k, j)` is `Win (j, 32 + k)`. -/
theorem right_apply (k : Fin 32) (j : Fin 256) :
    (V m c main_call0_v22 : S32x256.Idx → EReal) (ix2 k j) = (m ((c : Thread nD τ).loc main_arg2) : S256x64.Idx → EReal) (ix2 j (hi k)) := by
  rw [V_right, truncf_apply, transpose_ix2_apply]
  exact extractStridedSlice_apply _ _ _ _ (ix2 j (hi k)) fun a => match a with | ⟨0, _⟩ => (Nat.zero_add _).symm | ⟨1, _⟩ => rfl

/-- The staged second weights at `(k, j)` are `Wh (j, k)`. -/
theorem whT_apply (k j : Fin 256) :
    (V m c main_call0_v24 : S256x256.Idx → EReal) (ix2 k j) = (m ((c : Thread nD τ).loc main_arg4) : S256x256.Idx → EReal) (ix2 j k) := by
  rw [V_whT, truncf_apply, transpose_ix2_apply]

/-- The staged output weights at `(k, q)` are `Wout (q, k)`. -/
theorem woutT_apply (k : Fin 256) (q : Fin 64) :
    (V m c main_call0_v26 : S256x64.Idx → EReal) (ix2 k q) = (m ((c : Thread nD τ).loc main_arg6) : S64x256.Idx → EReal) (ix2 q k) := by
  rw [V_woutT, truncf_apply, transpose_ix2_apply]

/-- The staged bias rows read the biases. -/
theorem binRow_apply (u : Fin 1) (j : Fin 256) :
    (V m c main_call0_v27 : S1x256.Idx → EReal) (ix2 u j) = (m ((c : Thread nD τ).loc main_arg3) : S256.Idx → EReal) (ix1 j) := by
  rw [V_binRow, shapeCast_a_1a_apply]

theorem bhRow_apply (u : Fin 1) (j : Fin 256) :
    (V m c main_call0_v28 : S1x256.Idx → EReal) (ix2 u j) = (m ((c : Thread nD τ).loc main_arg5) : S256.Idx → EReal) (ix1 j) := by
  rw [V_bhRow, shapeCast_a_1a_apply]

theorem boutRow_apply (u : Fin 1) (q : Fin 64) :
    (V m c main_call0_v29 : S1x64.Idx → EReal) (ix2 u q) = (m ((c : Thread nD τ).loc main_arg7) : S64.Idx → EReal) (ix1 q) := by
  rw [V_boutRow, shapeCast_a_1a_apply]

end Cert.KernelIdeal.Arrays

end
-- ==== Proof.KernelBlocks.lean ====
/-
  Where each window's block lies in its array, and what it holds.

  The grid has 25 points.  At point `t` the feature window, the message window and the result window hold rows
  `4000 t … 4000 t + 3999` of their arrays (block index `(t, 0)`, blocks of 4000 rows); every parameter window holds
  its whole array (block index `(0, 0)`).  The printed index maps are decided once over the 25 points; an element of a
  block sits in the array at block index × block size + its coordinate inside the block, on each axis.  Reading the
  arrays as the host operations before the launch leave them, row `r` of the feature block is row `4000 t + r` of the
  features, row `r` of the message block is row `4000 t + r` of the aggregated messages, and the parameter blocks are
  the transposed weights and the bias rows.
-/
import proofs.«167154_j23802708755058_2_alg».proof.Proof.Gen.KernelIdeal.Frame
import proofs.«167154_j23802708755058_2_alg».proof.Proof.KernelArrays
import Idealize.ShloMosaic.Lib.Pipeline.Value

noncomputable section

namespace Cert.KernelIdeal.Blocks

open Cert.KernelIdeal Cert.KernelIdeal.Gen Idealize.ShloMosaic Idealize.ShloMosaic.TcCoe Idealize.SL.Sem
open Idealize.ShloMosaic.ValueIdx Cert.GraphMlp Cert.KernelIdeal.Arrays

variable (m : (ℓ : Loc nD τ sig) → Buf (Elt Ideal) ℓ)

/-- Row `r` of block `t` is row `4000 t + r` of the array. -/
def rowOf (t : Fin cfg0.N) (r : Fin 4000) : Fin 100000 :=
  ⟨4000 * t.val + r.val, by have := t.isLt; have h : cfg0.N = 25 := N_0; omega⟩

/-! ## The printed index maps, decided over the 25 points -/

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx9 : ∀ t : Fin cfg0.N, win0_9.index t (0 : Fin 2) = t.val ∧ win0_9.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)

/-! ## An element of a block, in its array -/

theorem emb0 (t : Fin cfg0.N) (r : Fin 4000) (k : Fin 32) :
    ((cfg0.win 0).blk t).view.emb (ix2 r k) = ix2 (rowOf t r) k := by
  funext a
  apply Fin.ext
  match a with
  | ⟨0, _⟩ => show win0_0.index t (0 : Fin 2) * 4000 + 1 * r.val = 4000 * t.val + r.val; rw [(idx0 t).1]; omega
  | ⟨1, _⟩ => show win0_0.index t (1 : Fin 2) * 32 + 1 * k.val = k.val; rw [(idx0 t).2]; omega

theorem emb1 (t : Fin cfg0.N) (r : Fin 4000) (k : Fin 32) :
    ((cfg0.win 1).blk t).view.emb (ix2 r k) = ix2 (rowOf t r) k := by
  funext a
  apply Fin.ext
  match a with
  | ⟨0, _⟩ => show win0_1.index t (0 : Fin 2) * 4000 + 1 * r.val = 4000 * t.val + r.val; rw [(idx1 t).1]; omega
  | ⟨1, _⟩ => show win0_1.index t (1 : Fin 2) * 32 + 1 * k.val = k.val; rw [(idx1 t).2]; omega

theorem emb9 (t : Fin cfg0.N) (r : Fin 4000) (k : Fin 64) :
    ((cfg0.win 9).blk t).view.emb (ix2 r k) = ix2 (rowOf t r) k := by
  funext a
  apply Fin.ext
  match a with
  | ⟨0, _⟩ => show win0_9.index t (0 : Fin 2) * 4000 + 1 * r.val = 4000 * t.val + r.val; rw [(idx9 t).1]; omega
  | ⟨1, _⟩ => show win0_9.index t (1 : Fin 2) * 64 + 1 * k.val = k.val; rw [(idx9 t).2]; omega

theorem emb2 (t : Fin cfg0.N) (k : Fin 32) (j : Fin 256) :
    ((cfg0.win 2).blk t).view.emb (ix2 k j) = ix2 k j := by
  funext a
  apply Fin.ext
  match a with
  | ⟨0, _⟩ => show win0_2.index t (0 : Fin 2) * 32 + 1 * k.val = k.val; rw [(idx2 t).1]; omega
  | ⟨1, _⟩ => show win0_2.index t (1 : Fin 2) * 256 + 1 * j.val = j.val; rw [(idx2 t).2]; omega

theorem emb3 (t : Fin cfg0.N) (k : Fin 32) (j : Fin 256) :
    ((cfg0.win 3).blk t).view.emb (ix2 k j) = ix2 k j := by
  funext a
  apply Fin.ext
  match a with
  | ⟨0, _⟩ => show win0_3.index t (0 : Fin 2) * 32 + 1 * k.val = k.val; rw [(idx3 t).1]; omega
  | ⟨1, _⟩ => show win0_3.index t (1 : Fin 2) * 256 + 1 * j.val = j.val; rw [(idx3 t).2]; omega

theorem emb4 (t : Fin cfg0.N) (k : Fin 1) (j : Fin 256) :
    ((cfg0.win 4).blk t).view.emb (ix2 k j) = ix2 k j := by
  funext a
  apply Fin.ext
  match a with
  | ⟨0, _⟩ => show win0_4.index t (0 : Fin 2) * 1 + 1 * k.val = k.val; rw [(idx4 t).1]; omega
  | ⟨1, _⟩ => show win0_4.index t (1 : Fin 2) * 256 + 1 * j.val = j.val; rw [(idx4 t).2]; omega

theorem emb5 (t : Fin cfg0.N) (k : Fin 256) (j : Fin 256) :
    ((cfg0.win 5).blk t).view.emb (ix2 k j) = ix2 k j := by
  funext a
  apply Fin.ext
  match a with
  | ⟨0, _⟩ => show win0_5.index t (0 : Fin 2) * 256 + 1 * k.val = k.val; rw [(idx5 t).1]; omega
  | ⟨1, _⟩ => show win0_5.index t (1 : Fin 2) * 256 + 1 * j.val = j.val; rw [(idx5 t).2]; omega

theorem emb6 (t : Fin cfg0.N) (k : Fin 1) (j : Fin 256) :
    ((cfg0.win 6).blk t).view.emb (ix2 k j) = ix2 k j := by
  funext a
  apply Fin.ext
  match a with
  | ⟨0, _⟩ => show win0_6.index t (0 : Fin 2) * 1 + 1 * k.val = k.val; rw [(idx6 t).1]; omega
  | ⟨1, _⟩ => show win0_6.index t (1 : Fin 2) * 256 + 1 * j.val = j.val; rw [(idx6 t).2]; omega

theorem emb7 (t : Fin cfg0.N) (k : Fin 256) (j : Fin 64) :
    ((cfg0.win 7).blk t).view.emb (ix2 k j) = ix2 k j := by
  funext a
  apply Fin.ext
  match a with
  | ⟨0, _⟩ => show win0_7.index t (0 : Fin 2) * 256 + 1 * k.val = k.val; rw [(idx7 t).1]; omega
  | ⟨1, _⟩ => show win0_7.index t (1 : Fin 2) * 64 + 1 * j.val = j.val; rw [(idx7 t).2]; omega

theorem emb8 (t : Fin cfg0.N) (k : Fin 1) (j : Fin 64) :
    ((cfg0.win 8).blk t).view.emb (ix2 k j) = ix2 k j := by
  funext a
  apply Fin.ext
  match a with
  | ⟨0, _⟩ => show win0_8.index t (0 : Fin 2) * 1 + 1 * k.val = k.val; rw [(idx8 t).1]; omega
  | ⟨1, _⟩ => show win0_8.index t (1 : Fin 2) * 64 + 1 * j.val = j.val; rw [(idx8 t).2]; omega

/-! ## What each block holds -/

/-- The feature window's array is the features as launched. -/
theorem arr0 (c : Dev nD) : (V m c (Pipeline.arrRef spec0 0) : S100000x32.Idx → EReal) = m ((c : Thread nD τ).loc main_arg0) :=
  V_main_arg0 m c

/-- The message window's array is the aggregated messages of the argument arrays. -/
theorem arr1 (c : Dev nD) : (V m c (Pipeline.arrRef spec0 1) : S100000x32.Idx → EReal)
    = msgOf (F := Ideal) (m ((c : Thread nD τ).loc main_arg0)) (m ((c : Thread nD τ).loc main_arg1)) (m ((c : Thread nD τ).loc main_arg8)) :=
  V_msg m c

/-- Row `r` of the feature block at point `t` is row `4000 t + r` of the features. -/
theorem blk0_read (c : Dev nD) (t : Fin cfg0.N) (r : Fin 4000) (k : Fin 32) :
    (iblk m c 0 t : S4000x32.Idx → EReal) (ix2 r k) = (m ((c : Thread nD τ).loc main_arg0) : S100000x32.Idx → EReal) (ix2 (rowOf t r) k) := by
  unfold iblk
  rw [View.read_apply, arr0, emb0, cast_eq]

/-- Row `r` of the message block at point `t` is row `4000 t + r` of the aggregated messages. -/
theorem blk1_read (c : Dev nD) (t : Fin cfg0.N) (r : Fin 4000) (k : Fin 32) :
    (iblk m c 1 t : S4000x32.Idx → EReal) (ix2 r k)
      = msgOf (F := Ideal) (m ((c : Thread nD τ).loc main_arg0)) (m ((c : Thread nD τ).loc main_arg1)) (m ((c : Thread nD τ).loc main_arg8)) (ix2 (rowOf t r) k) := by
  unfold iblk
  rw [View.read_apply, arr1, emb1, cast_eq]

theorem blk2_read (c : Dev nD) (t : Fin cfg0.N) (k : Fin 32) (j : Fin 256) :
    (iblk m c 2 t : S32x256.Idx → EReal) (ix2 k j) = (m ((c : Thread nD τ).loc main_arg2) : S256x64.Idx → EReal) (ix2 j (lo k)) := by
  unfold iblk
  rw [View.read_apply, emb2, cast_eq]
  exact left_apply m c k j

theorem blk3_read (c : Dev nD) (t : Fin cfg0.N) (k : Fin 32) (j : Fin 256) :
    (iblk m c 3 t : S32x256.Idx → EReal) (ix2 k j) = (m ((c : Thread nD τ).loc main_arg2) : S256x64.Idx → EReal) (ix2 j (hi k)) := by
  unfold iblk
  rw [View.read_apply, emb3, cast_eq]
  exact right_apply m c k j

theorem blk5_read (c : Dev nD) (t : Fin cfg0.N) (k : Fin 256) (j : Fin 256) :
    (iblk m c 5 t : S256x256.Idx → EReal) (ix2 k j) = (m ((c : Thread nD τ).loc main_arg4) : S256x256.Idx → EReal) (ix2 j k) := by
  unfold iblk
  rw [View.read_apply, emb5, cast_eq]
  exact whT_apply m c k j

theorem blk7_read (c : Dev nD) (t : Fin cfg0.N) (k : Fin 256) (j : Fin 64) :
    (iblk m c 7 t : S256x64.Idx → EReal) (ix2 k j) = (m ((c : Thread nD τ).loc main_arg6) : S64x256.Idx → EReal) (ix2 j k) := by
  unfold iblk
  rw [View.read_apply, emb7, cast_eq]
  exact woutT_apply m c k j

theorem blk4_read (c : Dev nD) (t : Fin cfg0.N) (j : Fin 256) :
    (iblk m c 4 t : S1x256.Idx → EReal) (ix2 (0 : Fin 1) j) = (m ((c : Thread nD τ).loc main_arg3) : S256.Idx → EReal) (ix1 j) := by
  unfold iblk
  rw [View.read_apply, emb4, cast_eq]
  exact binRow_apply m c 0 j

theorem blk6_read (c : Dev nD) (t : Fin cfg0.N) (j : Fin 256) :
    (iblk m c 6 t : S1x256.Idx → EReal) (ix2 (0 : Fin 1) j) = (m ((c : Thread nD τ).loc main_arg5) : S256.Idx → EReal) (ix1 j) := by
  unfold iblk
  rw [View.read_apply, emb6, cast_eq]
  exact bhRow_apply m c 0 j

theorem blk8_read (c : Dev nD) (t : Fin cfg0.N) (j : Fin 64) :
    (iblk m c 8 t : S1x64.Idx → EReal) (ix2 (0 : Fin 1) j) = (m ((c : Thread nD τ).loc main_arg7) : S64.Idx → EReal) (ix1 j) := by
  unfold iblk
  rw [View.read_apply, emb8, cast_eq]
  exact boutRow_apply m c 0 j

end Cert.KernelIdeal.Blocks

end
-- ==== Proof.KernelValue.lean ====
/-
  From the blocks to the whole array: what the kernel's run leaves in its result.

  Point `t` of the grid writes back rows `4000 t … 4000 t + 3999` of the result.  The body's stored block is the
  network on the staged rows (the payload read entry by entry), the staged parameters are the transposed weights and the
  bias rows, and the network's row `p` depends on row `p` of the features and messages only; so what point `t` writes
  back is block `t` of the network of the whole argument arrays.  The 25 blocks cover the 100000 rows (row `p` lies in
  block `p / 4000`), so after the run the result array is that network.
-/
import proofs.«167154_j23802708755058_2_alg».proof.Proof.Gen.KernelIdeal.Value
import proofs.«167154_j23802708755058_2_alg».proof.Proof.KernelBody
import proofs.«167154_j23802708755058_2_alg».proof.Proof.KernelBlocks
import Idealize.ShloMosaic.Lib.Pipeline.Value

noncomputable section

namespace Cert.KernelIdeal.Whole

open Cert.KernelIdeal Cert.KernelIdeal.Gen Idealize.ShloMosaic Idealize.ShloMosaic.TcCoe Idealize.SL.Sem
open Idealize.ShloMosaic.ValueIdx Cert.GraphMlp Cert.KernelIdeal.Arrays Cert.KernelIdeal.Body Cert.KernelIdeal.Blocks
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-- The network of core `c`'s argument arrays. -/
def net (c : Dev nD) : S100000x64.Idx → EReal :=
  mlp (M := 100000) (m ((c : Thread nD τ).loc main_arg0)) (msgOf (F := Ideal) (m ((c : Thread nD τ).loc main_arg0)) (m ((c : Thread nD τ).loc main_arg1)) (m ((c : Thread nD τ).loc main_arg8)))
    (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

/-- The stored block at `(r, q)`, from the blocks staged at point `t`, is the network at `(4000 t + r, q)`. -/
theorem stored_apply (c : Dev nD) (t : Fin cfg0.N) (r : Fin 4000) (q : Fin 64) :
    k0_pay1 (F := Ideal)
      (k0_pay2 (F := Ideal) (iblk m c 0 t) (iblk m c 1 t) (iblk m c 2 t) (iblk m c 3 t) (iblk m c 4 t) (iblk m c 5 t) (iblk m c 6 t))
      (k0_pay3 (F := Ideal) (iblk m c 0 t) (iblk m c 1 t) (iblk m c 2 t) (iblk m c 3 t) (iblk m c 4 t) (iblk m c 5 t) (iblk m c 6 t))
      (k0_pay4 (F := Ideal) (iblk m c 0 t) (iblk m c 1 t) (iblk m c 2 t) (iblk m c 3 t) (iblk m c 4 t) (iblk m c 5 t) (iblk m c 6 t))
      (iblk m c 7 t) (iblk m c 8 t) (ix2 r q)
    = net m c (ix2 (rowOf t r) q) := by
  refine (payload_eq_mlp (iblk m c 0 t) (iblk m c 1 t) (iblk m c 2 t) (iblk m c 3 t) (iblk m c 4 t) (iblk m c 5 t)
    (iblk m c 6 t) (iblk m c 7 t) (iblk m c 8 t)
    (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
    (fun k j => blk2_read m c t k j) (fun k j => blk3_read m c t k j) (fun j => blk4_read m c t j)
    (fun k j => blk5_read m c t k j) (fun j => blk6_read m c t j) (fun k j => blk7_read m c t k j)
    (fun j => blk8_read m c t j) r q).trans ?_
  unfold net
  exact mlp_rows (M := 4000) (M' := 100000) (iblk m c 0 t) (iblk m c 1 t) (m ((c : Thread nD τ).loc main_arg0)) (msgOf (F := Ideal) (m ((c : Thread nD τ).loc main_arg0)) (m ((c : Thread nD τ).loc main_arg1)) (m ((c : Thread nD τ).loc main_arg8)))
    (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
    r (rowOf t r) (fun k => blk0_read m c t r k) (fun k => blk1_read m c t r k) q

/-- What point `t` writes back is block `t` of the network of the argument arrays. -/
theorem flushed_eq (c : Dev nD) (t : Fin cfg0.N) :
    (dats m 0 c).flushed 9 t = ((cfg0.win 9).blk t).view.read (Elt Ideal) (net m c) := by
  rw [Value.flushed9]
  unfold out0_9
  rw [View.canon_unit_zero origin]
  simp only [View.ld_unit_zero (S := S4000x32) origin, View.ld_unit_zero (S := S32x256) origin,
    View.ld_unit_zero (S := S1x256) origin, View.ld_unit_zero (S := S256x256) origin,
    View.ld_unit_zero (S := S256x64) origin, View.ld_unit_zero (S := S1x64) origin]
  funext y
  rw [View.read_apply, cast_eq]
  obtain ⟨r, q, rfl⟩ : ∃ (r : Fin 4000) (q : Fin 64), y = ix2 r q := ⟨y 0, y 1, eq_ix2 y⟩
  rw [emb9]
  exact stored_apply m c t r q

/-- An index of the result array is in point `t`'s block iff each coordinate is in the block's range on its axis. -/
theorem mem_blk (t : Fin cfg0.N) (i : S100000x64.Idx) :
    i ∈ ((cfg0.win 9).blk t).view.set
      ↔ ∀ a : Fin 2, win0_9.index t a * S4000x64.size a ≤ (i a).val ∧ (i a).val < win0_9.index t a * S4000x64.size a + S4000x64.size a := by
  show i ∈ ((View.whole main_v0).slice (win0_9.rect t)).set ↔ _
  rw [View.set_slice_whole, Rect.mem_set_unit]
  exact Iff.rfl

/-- Every index of the result array lies in some point's block: row `p` in block `p / 4000`. -/
theorem cover (i : S100000x64.Idx) : ∃ t : Fin cfg0.N, (cfg0.win 9).flush t = true ∧ i ∈ ((cfg0.win 9).blk t).view.set := by
  have hi0 : (i 0).val < 100000 := (i 0).isLt
  have hi1 : (i 1).val < 64 := (i 1).isLt
  have hN : cfg0.N = 25 := N_0
  refine ⟨⟨(i 0).val / 4000, by omega⟩, flush0_9 _, ?_⟩
  rw [mem_blk]
  obtain ⟨e0, e1⟩ := idx9 ⟨(i 0).val / 4000, by omega⟩
  intro a
  match a with
  | ⟨0, _⟩ =>
    show win0_9.index _ (0 : Fin 2) * 4000 ≤ (i 0).val ∧ (i 0).val < win0_9.index _ (0 : Fin 2) * 4000 + 4000
    rw [e0]
    show (i 0).val / 4000 * 4000 ≤ (i 0).val ∧ (i 0).val < (i 0).val / 4000 * 4000 + 4000
    omega
  | ⟨1, _⟩ =>
    show win0_9.index _ (1 : Fin 2) * 64 ≤ (i 1).val ∧ (i 1).val < win0_9.index _ (1 : Fin 2) * 64 + 64
    rw [e1]
    omega

/-- After the run the result array is the network of the argument arrays. -/
theorem final (c : Dev nD) : (dats m 0 c).arrAt 9 cfg0.N = net m c :=
  (dats m 0 c).arrAt_eq_of_cover 9 (net m c) (fun t _ => flushed_eq m c t) cover

/-- The kernel's run: every weakly fair execution terminates with the result array at the network of the argument
    arrays and the argument arrays unchanged. -/
theorem run : θ_run defs (onTc (τ := τ) (main (F := Ideal))) ⟨m, fun _ => 0, ρ⟩ fun r => ∀ c : Dev nD,
      r.2.mem ((c : Thread nD τ).loc main_v0) = net m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (Value.run_blocks m ρ)

end Cert.KernelIdeal.Whole

end
-- ==== Proof.RefRun.lean ====
/-
  The reference program as a straight line of host operations, and its run.

  @main is six stretches one after the other: the message aggregation (gather the source rows, scale each by its edge
  weight, add the scaled rows into their target rows), the first dense layer on the features and messages side by side,
  the activation, the second dense layer, the activation again, the output layer.  The activation is a function of the
  module called twice; each call's operations are listed in place over that call's buffers.  Every weakly fair
  execution of a straight line of host operations terminates with each buffer at the fold of the operations' results
  over the launch contents (`run_main`), and two lines run one after the other fold one after the other (`after_append`).
-/
import proofs.«167154_j23802708755058_2_alg».proof.Proof.Gen.ReferenceIdeal
import Idealize.ShloMosaic.Lib.StableHlo.Run

noncomputable section

namespace Cert.ReferenceIdeal.HostLine

open Cert.ReferenceIdeal Cert.ReferenceIdeal.Gen Idealize.ShloMosaic Idealize.ShloMosaic.TcCoe Idealize.SL.Sem Idealize.ShloMosaic.StableHlo

variable {F : FTy → Type} [FloatOps F]

/-- The aggregation: source and target node of every edge, a negative source counted from the end, the gathered rows
    times the edge weights, added row by row into an array of zeros. -/
abbrev opsMsg : List (HloOp τ sig (Elt F)) :=
  [ unary main_arg8 main_v0 (extractStridedSlice S1x1600000 ![0, 0] · slices_S2x1600000_S1x1600000_0_0),
    reshape main_v0 main_v1 rfl shapeCasts_S1x1600000_S1600000,
    unary main_arg8 main_v2 (extractStridedSlice S1x1600000 ![1, 0] · slices_S2x1600000_S1x1600000_1_0),
    reshape main_v2 main_v3 rfl shapeCasts_S1x1600000_S1600000,
    nullary main_c (constantI S_ 32 0#32),
    unary main_c main_v4 (broadcastInDim S1600000 ![] bcast_S_S1600000),
    binary main_v1 main_v4 main_v5 (cmpi .slt),
    nullary main_c_0 (constantI S_ 32 100000#32),
    unary main_c_0 main_v6 (broadcastInDim S1600000 ![] bcast_S_S1600000),
    binary main_v1 main_v6 main_v7 addi,
    ternary main_v5 main_v7 main_v1 main_v8 select,
    unary main_v8 main_v9 (broadcastInDim S1600000x1 ![0] bcast_S1600000_S1600000x1_0),
    binary main_arg0 main_v9 main_v10 (fun x i => Host.gather gather_S100000x32_S1600000x1_S1600000x32_1_0_n_n_0_1_132 x i),
    unary main_arg1 main_v11 (broadcastInDim S1600000x1 ![0] bcast_S1600000_S1600000x1_0),
    unary main_v11 main_v12 (broadcastInDim S1600000x32 ![0, 1] bcast_S1600000x1_S1600000x32_0_1),
    binary main_v10 main_v12 main_v13 mulf,
    nullary main_cst (constant S_ .f32 0x00000000#32),
    unary main_cst main_v14 (broadcastInDim S100000x32 ![] bcast_S_S100000x32),
    unary main_v3 main_v15 (broadcastInDim S1600000x1 ![0] bcast_S1600000_S1600000x1_0),
    ternary main_v14 main_v15 main_v13 main_v16 (fun x i u => Host.scatterAdd scatter_S100000x32_S1600000x1_S1600000x32_1_0_0_1 x i u) ]

/-- The first layer before its activation: features and messages side by side, times the transposed weights, plus the
    bias spread over the rows. -/
abbrev opsL1 : List (HloOp τ sig (Elt F)) :=
  [ binary main_arg0 main_v16 main_v17 (fun a b => concatenate S100000x64 1 [⟨S100000x32, a⟩, ⟨S100000x32, b⟩] concatenates_S100000x32_S100000x32_S100000x64_d1),
    unary main_arg2 main_v18 (transpose S64x256 [1, 0] · transposes_S256x64_S64x256_1_0),
    binary main_v17 main_v18 main_v19 (fun l r => Host.dotGeneral dot_S100000x64_S64x256_S100000x256_1_0_0_1_n_n none l r),
    unary main_arg3 main_v20 (broadcastInDim S1x256 ![1] bcast_S256_S1x256_1),
    unary main_v20 main_v21 (broadcastInDim S100000x256 ![0, 1] bcast_S1x256_S100000x256_0_1),
    binary main_v19 main_v21 main_v22 addf ]

/-- One call of the activation on the array at `a`, over the call's buffers `φ`: two comparisons with zero, the inner
    select (zero where positive), `expm1`, the product with one, the outer select. -/
abbrev opsElu (a : TRef sig ⟨S100000x256, .f32⟩) (φ : fn_elu.Bufs) : List (HloOp τ sig (Elt F)) :=
  [ TRef.nullary φ.cst (constant S_ .f32 0x00000000#32),
    TRef.unary φ.cst φ.v0 (broadcastInDim S100000x256 ![] bcast_S_S100000x256),
    TRef.binary a φ.v0 φ.v1 (cmpf .ogt),
    TRef.nullary φ.cst_0 (constant S_ .f32 0x00000000#32),
    TRef.unary φ.cst_0 φ.v2 (broadcastInDim S100000x256 ![] bcast_S_S100000x256),
    TRef.binary a φ.v2 φ.v3 (cmpf .ogt),
    TRef.nullary φ.cst_1 (constant S_ .f32 0x00000000#32),
    TRef.unary φ.cst_1 φ.call0.v0 id,
    TRef.unary φ.call0.v0 φ.call0.v1 (broadcastInDim S100000x256 ![] bcast_S_S100000x256),
    TRef.ternary φ.v3 φ.call0.v1 a φ.call0.v2 select,
    TRef.unary φ.call0.v2 φ.v5 Host.expm1,
    TRef.nullary φ.cst_2 (constant S_ .f32 0x3F800000#32),
    TRef.unary φ.cst_2 φ.v6 (broadcastInDim S100000x256 ![] bcast_S_S100000x256),
    TRef.binary φ.v6 φ.v5 φ.v7 mulf,
    TRef.ternary φ.v1 a φ.v7 φ.call1.v0 select ]

/-- The second layer before its activation. -/
abbrev opsL2 : List (HloOp τ sig (Elt F)) :=
  [ unary main_arg4 main_v24 (transpose S256x256 [1, 0] · transposes_S256x256_S256x256_1_0),
    binary main_v23 main_v24 main_v25 (fun l r => Host.dotGeneral dot_S100000x256_S256x256_S100000x256_1_0_0_1_n_n none l r),
    unary main_arg5 main_v26 (broadcastInDim S1x256 ![1] bcast_S256_S1x256_1),
    unary main_v26 main_v27 (broadcastInDim S100000x256 ![0, 1] bcast_S1x256_S100000x256_0_1),
    binary main_v25 main_v27 main_v28 addf ]

/-- The output layer. -/
abbrev opsL3 : List (HloOp τ sig (Elt F)) :=
  [ unary main_arg6 main_v30 (transpose S256x64 [1, 0] · transposes_S64x256_S256x64_1_0),
    binary main_v29 main_v30 main_v31 (fun l r => Host.dotGeneral dot_S100000x256_S256x64_S100000x64_1_0_0_1_n_n none l r),
    unary main_arg7 main_v32 (broadcastInDim S1x64 ![1] bcast_S64_S1x64_1),
    unary main_v32 main_v33 (broadcastInDim S100000x64 ![0, 1] bcast_S1x64_S100000x64_0_1),
    binary main_v31 main_v33 main_v34 addf ]

/-- @main's sixty-six operations, in order. -/
abbrev ops : List (HloOp τ sig (Elt F)) :=
  opsMsg ++ (opsL1 ++ (opsElu (.of main_v22) main_call0 ++ (opsL2 ++ (opsElu (.of main_v28) main_call1 ++ opsL3))))

set_option maxRecDepth 4096 in
/-- @main is that straight line: the called functions unfolded at their calls, sequencing re-associated. -/
theorem main_eq (c : Dev nD) : main (F := F) c = seq ops := by
  simp only [main, fn_elu.body, fn_where.body, fn_where_0.body, seq, bind_assoc, pure_bind, List.cons_append, List.nil_append]
  rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig := by
  simp only [ops, opsMsg, opsL1, opsElu, opsL2, opsL3, List.cons_append, List.nil_append, List.Forall]
  exact ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., binary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., unary_bufs_sub .., binary_bufs_sub .., unary_bufs_sub .., unary_bufs_sub .., binary_bufs_sub ..⟩

/-- Every weakly fair execution of @main terminates with each buffer at the fold of the operations over the launch
    contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- Two lines one after the other: the second folds over what the first leaves. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

end Cert.ReferenceIdeal.HostLine

end
-- ==== Proof.LibDense.lean ====
/-
  Dense layers read at an index, over the extended reals.

  A bias vector `b : [N]` enters a dense layer as a row broadcast over `M` rows: in a kernel as a shape cast to
  `[1, N]` followed by a vector broadcast to `[M, N]`, on the host as two `broadcast_in_dim`s.  Either way the entry
  at `(p, q)` is `b q`.  With the plain matrix product read at an index this gives the three layers below as plain
  formulas, whatever the tiling of the rows:

    * `linRelu x w b (p, q) = max (∑ k, x (p, k) * w (k, q) + b q) 0`
    * `sageRelu agg h wl bl wr (p, q) = max ((∑ k, agg (p, k) * wl (k, q) + bl q) + ∑ k, h (p, k) * wr (k, q)) 0`
    * `mlpPre cat w1 b1 w2 b2 (p, u) = ∑ j, max (∑ k, cat (p, k) * w1 (k, j) + b1 j) 0 * w2 (j, u) + b2 u`
    * `mlpScore … = tanh (mlpPre …)`, entry by entry

  (`0` is kept as the float word `0x00000000` read at the ideal instance; it is the same word on every side and is
  never evaluated.)
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Idealize.ShloMosaic.DenseLayer

open Idealize.ShloMosaic Idealize.ShloMosaic.ValueIdx

variable {α : Type}

/-- A kernel's bias row: `b : [N]` cast to `[1, N]` and broadcast to `[M, N]` reads `b q` at `(p, q)`. -/
theorem castRow_apply {M N : ℕ} (b : (⟨1, ![N]⟩ : Shape).Idx → α)
    (h1 : (⟨1, ![N]⟩ : Shape).ShapeCasts ⟨2, ![1, N]⟩) (h2 : (⟨2, ![1, N]⟩ : Shape).Broadcasts ⟨2, ![M, N]⟩)
    (p : Fin M) (q : Fin N) :
    broadcastTo ⟨2, ![M, N]⟩ (shapeCast ⟨2, ![1, N]⟩ b h1) h2 (ix2 p q) = b (ix1 q) := by
  rw [broadcastTo_1b_ab_apply, shapeCast_a_1a_apply]

/-- The host's bias row: `b : [N]` broadcast to `[1, N]` along axis 1, then to `[M, N]`, reads `b q` at `(p, q)`. -/
theorem inDimRow_apply {M N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1])
    (p : Fin M) (q : Fin N) :
    broadcastInDim ⟨2, ![M, N]⟩ ![0, 1] h2 (broadcastInDim ⟨2, ![1, N]⟩ ![1] h1 b) (ix2 p q) = b (ix1 q) := by
  rw [broadcastInDim_apply ![0, 1] h2 _ (ix2 p q) (ix2 (0 : Fin 1) q) (fun a => by
    match a with
    | ⟨0, _⟩ => rfl
    | ⟨1, _⟩ =>
      show q.val = if N = 1 then 0 else q.val
      split
      · have := q.isLt; omega
      · rfl)]
  exact broadcastInDim_apply ![1] h1 b (ix2 (0 : Fin 1) q) (ix1 q) (fun a => by
    match a with
    | ⟨0, _⟩ =>
      show q.val = if N = 1 then 0 else q.val
      split
      · have := q.isLt; omega
      · rfl)

/-- The float word zero, read at the ideal instance. -/
abbrev zeroWord : EReal := Ideal.ofBits .f32 0x00000000#32

/-- `relu (x · w + b)`, entry by entry. -/
def linRelu {M K N : ℕ} (x : (⟨2, ![M, K]⟩ : Shape).Idx → EReal) (w : (⟨2, ![K, N]⟩ : Shape).Idx → EReal)
    (b : (⟨1, ![N]⟩ : Shape).Idx → EReal) : (⟨2, ![M, N]⟩ : Shape).Idx → EReal := fun i =>
  max (∑ k : Fin K, x (ix2 (i 0) k) * w (ix2 k (i 1)) + b (ix1 (i 1))) zeroWord

/-- `relu ((agg · wl + bl) + h · wr)`, entry by entry. -/
def sageRelu {M K N : ℕ} (agg h : (⟨2, ![M, K]⟩ : Shape).Idx → EReal) (wl : (⟨2, ![K, N]⟩ : Shape).Idx → EReal)
    (bl : (⟨1, ![N]⟩ : Shape).Idx → EReal) (wr : (⟨2, ![K, N]⟩ : Shape).Idx → EReal) :
    (⟨2, ![M, N]⟩ : Shape).Idx → EReal := fun i =>
  max ((∑ k : Fin K, agg (ix2 (i 0) k) * wl (ix2 k (i 1)) + bl (ix1 (i 1)))
    + ∑ k : Fin K, h (ix2 (i 0) k) * wr (ix2 k (i 1))) zeroWord

/-- `relu (cat · w1 + b1) · w2 + b2`, entry by entry: the score before its `tanh`. -/
def mlpPre {M K H N : ℕ} (cat : (⟨2, ![M, K]⟩ : Shape).Idx → EReal) (w1 : (⟨2, ![K, H]⟩ : Shape).Idx → EReal)
    (b1 : (⟨1, ![H]⟩ : Shape).Idx → EReal) (w2 : (⟨2, ![H, N]⟩ : Shape).Idx → EReal)
    (b2 : (⟨1, ![N]⟩ : Shape).Idx → EReal) : (⟨2, ![M, N]⟩ : Shape).Idx → EReal := fun i =>
  ∑ j : Fin H, linRelu cat w1 b1 (ix2 (i 0) j) * w2 (ix2 j (i 1)) + b2 (ix1 (i 1))

/-- The score: `tanh` of `mlpPre`, entry by entry. -/
def mlpScore {M K H N : ℕ} (cat : (⟨2, ![M, K]⟩ : Shape).Idx → EReal) (w1 : (⟨2, ![K, H]⟩ : Shape).Idx → EReal)
    (b1 : (⟨1, ![H]⟩ : Shape).Idx → EReal) (w2 : (⟨2, ![H, N]⟩ : Shape).Idx → EReal)
    (b2 : (⟨1, ![N]⟩ : Shape).Idx → EReal) : (⟨2, ![M, N]⟩ : Shape).Idx → EReal := fun i =>
  Ideal.tanh (mlpPre cat w1 b1 w2 b2 i)

theorem linRelu_apply {M K N : ℕ} (x : (⟨2, ![M, K]⟩ : Shape).Idx → EReal) (w : (⟨2, ![K, N]⟩ : Shape).Idx → EReal)
    (b : (⟨1, ![N]⟩ : Shape).Idx → EReal) (p : Fin M) (q : Fin N) :
    linRelu x w b (ix2 p q) = max (∑ k : Fin K, x (ix2 p k) * w (ix2 k q) + b (ix1 q)) zeroWord := rfl

theorem sageRelu_apply {M K N : ℕ} (agg h : (⟨2, ![M, K]⟩ : Shape).Idx → EReal) (wl : (⟨2, ![K, N]⟩ : Shape).Idx → EReal)
    (bl : (⟨1, ![N]⟩ : Shape).Idx → EReal) (wr : (⟨2, ![K, N]⟩ : Shape).Idx → EReal) (p : Fin M) (q : Fin N) :
    sageRelu agg h wl bl wr (ix2 p q)
      = max ((∑ k : Fin K, agg (ix2 p k) * wl (ix2 k q) + bl (ix1 q)) + ∑ k : Fin K, h (ix2 p k) * wr (ix2 k q)) zeroWord := rfl

theorem mlpPre_apply {M K H N : ℕ} (cat : (⟨2, ![M, K]⟩ : Shape).Idx → EReal) (w1 : (⟨2, ![K, H]⟩ : Shape).Idx → EReal)
    (b1 : (⟨1, ![H]⟩ : Shape).Idx → EReal) (w2 : (⟨2, ![H, N]⟩ : Shape).Idx → EReal)
    (b2 : (⟨1, ![N]⟩ : Shape).Idx → EReal) (p : Fin M) (u : Fin N) :
    mlpPre cat w1 b1 w2 b2 (ix2 p u)
      = ∑ j : Fin H, max (∑ k : Fin K, cat (ix2 p k) * w1 (ix2 k j) + b1 (ix1 j)) zeroWord * w2 (ix2 j u) + b2 (ix1 u) := rfl

end Idealize.ShloMosaic.DenseLayer

end
-- ==== Proof.RefValue.lean ====
/-
  What the reference computes, stage by stage, and that it is the network of the specification.

  Each stretch of the reference's straight line writes one array the next stretch reads: the aggregated messages
  (`msgOf`), the first layer before its activation (`pre1`: features and messages side by side times the transposed
  weights, plus the bias row spread over the rows), the activation (`eluH`, the host's spelling), the second layer
  (`pre2`) and the output layer (`outH`).  Folding the whole line is folding the stretches one after the other, and
  the argument arrays are written by none of them (`result_eq`, `args_kept`).

  Over the extended reals, entry by entry: a product with the contracted axis last on the left and first on the right
  is the sum over that axis; the transposed weight at `(k, j)` is the weight at `(j, k)`; the two arrays side by side
  read the left one in the first 32 columns and the right one in the last 32, so the sum over the 64 columns is the sum
  over each half; a bias sent to a row and then to every row reads the bias; the host's activation is `elu`.  So the
  reference's result is `mlp` of the features, the messages and the parameters (`ref_is_mlp`).
-/
import proofs.«167154_j23802708755058_2_alg».proof.Proof.RefRun
import proofs.«167154_j23802708755058_2_alg».proof.Proof.Spec
import proofs.«167154_j23802708755058_2_alg».proof.Proof.LibPlainDot
import proofs.«167154_j23802708755058_2_alg».proof.Proof.LibDense
import Idealize.ShloMosaic.Lib.ValueLayout
import Idealize.ShloMosaic.Lib.Pipeline.Value

noncomputable section

namespace Cert.ReferenceIdeal.HostLine

open Cert.ReferenceIdeal Cert.ReferenceIdeal.Gen Idealize.ShloMosaic Idealize.ShloMosaic.TcCoe Idealize.SL.Sem
open Idealize.ShloMosaic.StableHlo Idealize.ShloMosaic.ValueIdx Idealize.ShloMosaic.EluForms Cert.GraphMlp

variable {F : FTy → Type} [FloatOps F]

/-! ## The stages -/

/-- The aggregated messages as a function of the features `x`, the edge weights `ew` and the edge list `ei` (row 0
    the source nodes, row 1 the target nodes): a negative source index counts from the end; row `src e` of `x` times
    `ew e` is added into row `dst e` of an array of zeros. -/
def msgOf {F : FTy → Type} [FloatOps F] (x : FVec F S100000x32 .f32) (ew : FVec F S1600000 .f32) (ei : IVec S2x1600000 32) :
    FVec F S100000x32 .f32 :=
  Host.scatterAdd scatter_S100000x32_S1600000x1_S1600000x32_1_0_0_1
    (broadcastInDim S100000x32 ![] bcast_S_S100000x32 (constant S_ .f32 0x00000000#32))
    (broadcastInDim S1600000x1 ![0] bcast_S1600000_S1600000x1_0
      (shapeCast S1600000 (extractStridedSlice S1x1600000 ![1, 0] ei slices_S2x1600000_S1x1600000_1_0) shapeCasts_S1x1600000_S1600000))
    (mulf
      (Host.gather gather_S100000x32_S1600000x1_S1600000x32_1_0_n_n_0_1_132 x
        (broadcastInDim S1600000x1 ![0] bcast_S1600000_S1600000x1_0
          (select
            (cmpi .slt
              (shapeCast S1600000 (extractStridedSlice S1x1600000 ![0, 0] ei slices_S2x1600000_S1x1600000_0_0) shapeCasts_S1x1600000_S1600000)
              (broadcastInDim S1600000 ![] bcast_S_S1600000 (constantI S_ 32 0#32)))
            (addi
              (shapeCast S1600000 (extractStridedSlice S1x1600000 ![0, 0] ei slices_S2x1600000_S1x1600000_0_0) shapeCasts_S1x1600000_S1600000)
              (broadcastInDim S1600000 ![] bcast_S_S1600000 (constantI S_ 32 100000#32)))
            (shapeCast S1600000 (extractStridedSlice S1x1600000 ![0, 0] ei slices_S2x1600000_S1x1600000_0_0) shapeCasts_S1x1600000_S1600000))))
      (broadcastInDim S1600000x32 ![0, 1] bcast_S1600000x1_S1600000x32_0_1
        (broadcastInDim S1600000x1 ![0] bcast_S1600000_S1600000x1_0 ew)))

/-- The first layer before its activation. -/
def pre1 (x msg : FVec F S100000x32 .f32) (Win : FVec F S256x64 .f32) (bin : FVec F S256 .f32) : FVec F S100000x256 .f32 :=
  addf
    (Host.dotGeneral dot_S100000x64_S64x256_S100000x256_1_0_0_1_n_n none
      (concatenate S100000x64 1 [⟨S100000x32, x⟩, ⟨S100000x32, msg⟩] concatenates_S100000x32_S100000x32_S100000x64_d1)
      (transpose S64x256 [1, 0] Win transposes_S256x64_S64x256_1_0))
    (broadcastInDim S100000x256 ![0, 1] bcast_S1x256_S100000x256_0_1 (broadcastInDim S1x256 ![1] bcast_S256_S1x256_1 bin))

/-- The activation, as the host spells it. -/
def eluH (v : FVec F S100000x256 .f32) : FVec F S100000x256 .f32 :=
  select (cmpf .ogt v (broadcastInDim S100000x256 ![] bcast_S_S100000x256 (constant S_ .f32 0x00000000#32))) v
    (mulf (broadcastInDim S100000x256 ![] bcast_S_S100000x256 (constant S_ .f32 0x3F800000#32))
      (Host.expm1
        (select (cmpf .ogt v (broadcastInDim S100000x256 ![] bcast_S_S100000x256 (constant S_ .f32 0x00000000#32)))
          (broadcastInDim S100000x256 ![] bcast_S_S100000x256 (id (constant S_ .f32 0x00000000#32))) v)))

/-- The second layer before its activation. -/
def pre2 (h : FVec F S100000x256 .f32) (Wh : FVec F S256x256 .f32) (bh : FVec F S256 .f32) : FVec F S100000x256 .f32 :=
  addf
    (Host.dotGeneral dot_S100000x256_S256x256_S100000x256_1_0_0_1_n_n none h
      (transpose S256x256 [1, 0] Wh transposes_S256x256_S256x256_1_0))
    (broadcastInDim S100000x256 ![0, 1] bcast_S1x256_S100000x256_0_1 (broadcastInDim S1x256 ![1] bcast_S256_S1x256_1 bh))

/-- The output layer. -/
def outH (h : FVec F S100000x256 .f32) (Wout : FVec F S64x256 .f32) (bout : FVec F S64 .f32) : FVec F S100000x64 .f32 :=
  addf
    (Host.dotGeneral dot_S100000x256_S256x64_S100000x64_1_0_0_1_n_n none h
      (transpose S256x64 [1, 0] Wout transposes_S64x256_S256x64_1_0))
    (broadcastInDim S100000x64 ![0, 1] bcast_S1x64_S100000x64_0_1 (broadcastInDim S1x64 ![1] bcast_S64_S1x64_1 bout))

/-! ## Each stretch, from any contents -/

/-- Reads one buffer after one stretch: the stretch and the calls' buffer records spelt out, then each operation's
    result at its own buffer and the earlier contents at any other. -/
local macro "read_stretch" : tactic =>
  `(tactic| (dsimp only [opsMsg, opsL1, opsElu, opsL2, opsL3, main_call0, main_call0_call0, main_call0_call1,
      main_call1, main_call1_call0, main_call1_call1]; after_results_simp))

variable (W : Valuation τ sig (Elt F))

theorem seg_msg : after opsMsg W (main_v16 : DevRef τ sig)
    = msgOf (W (main_arg0 : DevRef τ sig)) (W (main_arg1 : DevRef τ sig)) (W (main_arg8 : DevRef τ sig)) := by
  read_stretch
  rfl

theorem kept_msg : after opsMsg W (main_arg0 : DevRef τ sig) = W (main_arg0 : DevRef τ sig)
    ∧ after opsMsg W (main_arg2 : DevRef τ sig) = W (main_arg2 : DevRef τ sig)
    ∧ after opsMsg W (main_arg3 : DevRef τ sig) = W (main_arg3 : DevRef τ sig)
    ∧ after opsMsg W (main_arg4 : DevRef τ sig) = W (main_arg4 : DevRef τ sig)
    ∧ after opsMsg W (main_arg5 : DevRef τ sig) = W (main_arg5 : DevRef τ sig)
    ∧ after opsMsg W (main_arg6 : DevRef τ sig) = W (main_arg6 : DevRef τ sig)
    ∧ after opsMsg W (main_arg7 : DevRef τ sig) = W (main_arg7 : DevRef τ sig) := by
  refine ⟨?_, ?_, ?_, ?_, ?_, ?_, ?_⟩ <;> read_stretch

theorem seg_L1 : after opsL1 W (main_v22 : DevRef τ sig)
    = pre1 (W (main_arg0 : DevRef τ sig)) (W (main_v16 : DevRef τ sig)) (W (main_arg2 : DevRef τ sig)) (W (main_arg3 : DevRef τ sig)) := by
  read_stretch
  rfl

theorem kept_L1 : after opsL1 W (main_arg4 : DevRef τ sig) = W (main_arg4 : DevRef τ sig)
    ∧ after opsL1 W (main_arg5 : DevRef τ sig) = W (main_arg5 : DevRef τ sig)
    ∧ after opsL1 W (main_arg6 : DevRef τ sig) = W (main_arg6 : DevRef τ sig)
    ∧ after opsL1 W (main_arg7 : DevRef τ sig) = W (main_arg7 : DevRef τ sig) := by
  refine ⟨?_, ?_, ?_, ?_⟩ <;> read_stretch

theorem seg_elu0 : after (opsElu (.of main_v22) main_call0) W (main_v23 : DevRef τ sig) = eluH (W (main_v22 : DevRef τ sig)) := by
  read_stretch
  rfl

theorem kept_elu0 : after (opsElu (.of main_v22) main_call0) W (main_arg4 : DevRef τ sig) = W (main_arg4 : DevRef τ sig)
    ∧ after (opsElu (.of main_v22) main_call0) W (main_arg5 : DevRef τ sig) = W (main_arg5 : DevRef τ sig)
    ∧ after (opsElu (.of main_v22) main_call0) W (main_arg6 : DevRef τ sig) = W (main_arg6 : DevRef τ sig)
    ∧ after (opsElu (.of main_v22) main_call0) W (main_arg7 : DevRef τ sig) = W (main_arg7 : DevRef τ sig) := by
  refine ⟨?_, ?_, ?_, ?_⟩ <;> read_stretch

theorem seg_L2 : after opsL2 W (main_v28 : DevRef τ sig)
    = pre2 (W (main_v23 : DevRef τ sig)) (W (main_arg4 : DevRef τ sig)) (W (main_arg5 : DevRef τ sig)) := by
  read_stretch
  rfl

theorem kept_L2 : after opsL2 W (main_arg6 : DevRef τ sig) = W (main_arg6 : DevRef τ sig)
    ∧ after opsL2 W (main_arg7 : DevRef τ sig) = W (main_arg7 : DevRef τ sig) := by
  refine ⟨?_, ?_⟩ <;> read_stretch

theorem seg_elu1 : after (opsElu (.of main_v28) main_call1) W (main_v29 : DevRef τ sig) = eluH (W (main_v28 : DevRef τ sig)) := by
  read_stretch
  rfl

theorem kept_elu1 : after (opsElu (.of main_v28) main_call1) W (main_arg6 : DevRef τ sig) = W (main_arg6 : DevRef τ sig)
    ∧ after (opsElu (.of main_v28) main_call1) W (main_arg7 : DevRef τ sig) = W (main_arg7 : DevRef τ sig) := by
  refine ⟨?_, ?_⟩ <;> read_stretch

theorem seg_L3 : after opsL3 W (main_v34 : DevRef τ sig)
    = outH (W (main_v29 : DevRef τ sig)) (W (main_arg6 : DevRef τ sig)) (W (main_arg7 : DevRef τ sig)) := by
  read_stretch
  rfl

/-! ## The whole line -/

/-- The result buffer after the whole line: the stages composed, over the launch contents of the arguments. -/
theorem result_eq (V : Valuation τ sig (Elt F)) :
    after ops V (main_v34 : DevRef τ sig)
      = outH (eluH (pre2 (eluH (pre1 (V (main_arg0 : DevRef τ sig))
            (msgOf (V (main_arg0 : DevRef τ sig)) (V (main_arg1 : DevRef τ sig)) (V (main_arg8 : DevRef τ sig)))
            (V (main_arg2 : DevRef τ sig)) (V (main_arg3 : DevRef τ sig))))
          (V (main_arg4 : DevRef τ sig)) (V (main_arg5 : DevRef τ sig))))
        (V (main_arg6 : DevRef τ sig)) (V (main_arg7 : DevRef τ sig)) := by
  show after (opsMsg ++ (opsL1 ++ (opsElu (.of main_v22) main_call0 ++ (opsL2 ++ (opsElu (.of main_v28) main_call1 ++ opsL3))))) V _ = _
  rw [after_append, after_append, after_append, after_append, after_append]
  rw [seg_L3, seg_elu1, (kept_elu1 _).1, (kept_elu1 _).2]
  rw [seg_L2, (kept_L2 _).1, (kept_L2 _).2]
  rw [seg_elu0, (kept_elu0 _).1, (kept_elu0 _).2.1, (kept_elu0 _).2.2.1, (kept_elu0 _).2.2.2]
  rw [seg_L1, (kept_L1 _).1, (kept_L1 _).2.1, (kept_L1 _).2.2.1, (kept_L1 _).2.2.2]
  rw [seg_msg, (kept_msg _).1, (kept_msg _).2.1, (kept_msg _).2.2.1, (kept_msg _).2.2.2.1, (kept_msg _).2.2.2.2.1,
    (kept_msg _).2.2.2.2.2.1, (kept_msg _).2.2.2.2.2.2]

/-- No operation of the line writes an argument array. -/
theorem arg_kept (V : Valuation τ sig (Elt F)) (r : Ref sig .tc)
    (hr : r ∈ [main_arg0, main_arg1, main_arg2, main_arg3, main_arg4, main_arg5, main_arg6, main_arg7, main_arg8]) :
    after ops V (Proc.devRef .tc r) = V (Proc.devRef .tc r) := by
  refine after_of_forall_not_mem _ _ (List.forall_iff_forall_mem.mp ?_)
  simp only [ops, opsMsg, opsL1, opsElu, opsL2, opsL3, main_call0, main_call0_call0, main_call0_call1, main_call1,
    main_call1_call0, main_call1_call1, List.cons_append, List.nil_append, List.Forall, nullary_writes, unary_writes,
    binary_writes, ternary_writes, reshape_writes, Finset.mem_singleton]
  simp only [List.mem_cons, List.not_mem_nil, or_false] at hr
  rcases hr with rfl | rfl | rfl | rfl | rfl | rfl | rfl | rfl | rfl <;>
  · repeat' apply And.intro
    all_goals exact devRef_ne_of_ne (by decide)

/-! ## The stages over the extended reals -/

theorem concat_lo (a b : S100000x32.Idx → EReal) (h : Shape.Concatenates [S100000x32, S100000x32] S100000x64 1)
    (p : Fin 100000) (k : Fin 32) :
    concatenate S100000x64 1 [⟨S100000x32, a⟩, ⟨S100000x32, b⟩] h (ix2 p (lo k)) = a (ix2 p k) :=
  concatenate_pair_apply_left 1 a b h _ rfl (ix2 p k) fun d => match d with | ⟨0, _⟩ => rfl | ⟨1, _⟩ => rfl

theorem concat_hi (a b : S100000x32.Idx → EReal) (h : Shape.Concatenates [S100000x32, S100000x32] S100000x64 1)
    (p : Fin 100000) (k : Fin 32) :
    concatenate S100000x64 1 [⟨S100000x32, a⟩, ⟨S100000x32, b⟩] h (ix2 p (hi k)) = b (ix2 p k) :=
  concatenate_pair_apply_right 1 a b h _ rfl rfl (ix2 p k)
    (fun d hd => match d, hd with | ⟨0, _⟩, _ => rfl | ⟨1, _⟩, hd => absurd rfl hd)
    (show k.val + 32 = 32 + k.val by omega)

/-- The transposed weights at `(k, j)` are the weights at `(j, k)`. -/
theorem tr_Win (Win : FVec Ideal S256x64 .f32) (k : Fin 64) (j : Fin 256) :
    transpose S64x256 [1, 0] Win transposes_S256x64_S64x256_1_0 (ix2 k j) = Win (ix2 j k) :=
  transpose_ix2_apply Win _ k j

theorem tr_Wh (Wh : FVec Ideal S256x256 .f32) (k j : Fin 256) :
    transpose S256x256 [1, 0] Wh transposes_S256x256_S256x256_1_0 (ix2 k j) = Wh (ix2 j k) :=
  transpose_ix2_apply Wh _ k j

theorem tr_Wout (Wout : FVec Ideal S64x256 .f32) (k : Fin 256) (q : Fin 64) :
    transpose S256x64 [1, 0] Wout transposes_S64x256_S256x64_1_0 (ix2 k q) = Wout (ix2 q k) :=
  transpose_ix2_apply Wout _ k q

theorem pre1_apply (x msg : FVec Ideal S100000x32 .f32) (Win : FVec Ideal S256x64 .f32) (bin : FVec Ideal S256 .f32)
    (p : Fin 100000) (j : Fin 256) :
    pre1 (F := Ideal) x msg Win bin (ix2 p j)
      = (∑ k : Fin 32, x (ix2 p k) * Win (ix2 j (lo k)) + ∑ k : Fin 32, msg (ix2 p k) * Win (ix2 j (hi k))) + bin (ix1 j) := by
  unfold pre1
  simp only [Host.dotGeneral]
  rw [addf_apply, PlainDot.dotGeneral_apply dot_S100000x64_S64x256_S100000x256_1_0_0_1_n_n rfl, DenseLayer.inDimRow_apply, sum_halves]
  refine congrArg (· + bin (ix1 j)) (congrArg₂ (· + ·) (Finset.sum_congr rfl fun k _ => ?_) (Finset.sum_congr rfl fun k _ => ?_))
  · rw [concat_lo, tr_Win]
  · rw [concat_hi, tr_Win]

theorem eluH_apply (v : FVec Ideal S100000x256 .f32) (i : S100000x256.Idx) : eluH (F := Ideal) v i = elu (v i) :=
  host_apply v _ _ _ _ (fun _ => Ideal.ofBits_zero_f32) (fun _ => Ideal.ofBits_zero_f32) (fun _ => Ideal.ofBits_zero_f32)
    (fun _ => ofBits_one_f32) i

theorem pre2_apply (h : FVec Ideal S100000x256 .f32) (Wh : FVec Ideal S256x256 .f32) (bh : FVec Ideal S256 .f32)
    (p : Fin 100000) (j : Fin 256) :
    pre2 (F := Ideal) h Wh bh (ix2 p j) = ∑ k : Fin 256, h (ix2 p k) * Wh (ix2 j k) + bh (ix1 j) := by
  unfold pre2
  simp only [Host.dotGeneral]
  rw [addf_apply, PlainDot.dotGeneral_apply dot_S100000x256_S256x256_S100000x256_1_0_0_1_n_n rfl, DenseLayer.inDimRow_apply]
  refine congrArg (· + bh (ix1 j)) (Finset.sum_congr rfl fun k _ => ?_)
  rw [tr_Wh]

theorem outH_apply (h : FVec Ideal S100000x256 .f32) (Wout : FVec Ideal S64x256 .f32) (bout : FVec Ideal S64 .f32)
    (p : Fin 100000) (q : Fin 64) :
    outH (F := Ideal) h Wout bout (ix2 p q) = ∑ k : Fin 256, h (ix2 p k) * Wout (ix2 q k) + bout (ix1 q) := by
  unfold outH
  simp only [Host.dotGeneral]
  rw [addf_apply, PlainDot.dotGeneral_apply dot_S100000x256_S256x64_S100000x64_1_0_0_1_n_n rfl, DenseLayer.inDimRow_apply]
  refine congrArg (· + bout (ix1 q)) (Finset.sum_congr rfl fun k _ => ?_)
  rw [tr_Wout]

/-- The reference's stages composed are the network of the specification. -/
theorem ref_is_mlp (x msg : FVec Ideal S100000x32 .f32) (Win : FVec Ideal S256x64 .f32) (bin : FVec Ideal S256 .f32)
    (Wh : FVec Ideal S256x256 .f32) (bh : FVec Ideal S256 .f32) (Wout : FVec Ideal S64x256 .f32) (bout : FVec Ideal S64 .f32) :
    outH (F := Ideal) (eluH (pre2 (eluH (pre1 x msg Win bin)) Wh bh)) Wout bout
      = mlp (M := 100000) x msg Win bin Wh bh Wout bout := by
  funext i
  obtain ⟨p, q, rfl⟩ : ∃ (p : Fin 100000) (q : Fin 64), i = ix2 p q := ⟨i 0, i 1, eq_ix2 i⟩
  unfold mlp
  rw [outH_apply, outLayer_apply]
  simp only [eluH_apply, pre2_apply, pre1_apply, hidden2_apply, hidden1_apply]

end Cert.ReferenceIdeal.HostLine

end
-- ==== Proof.lean ====
/-
  The certificate: a message-passing layer followed by a three-layer network with exponential linear units, computed
  by a kernel that streams the 100000 rows in 25 blocks, against the plain array program.

  Both programs first aggregate messages with the same host operations (gather the source rows, scale by the edge
  weights, add into the target rows): one function `msgOf` of the features, the edge weights and the edge list,
  never opened.  Over the extended reals the kernel's result array is the network `mlp` of the features, those
  messages and the parameters (a block at a time: each grid point stores the network on its 4000 rows, and the
  blocks cover the array), and the reference's result is the same function: its product of the features and messages
  side by side with the transposed 256 × 64 weights is the kernel's two products with the two transposed halves
  (a sum over 64 columns is the sum over each half), its bias rows are the kernel's reshaped biases entry by entry,
  and its activation `select (v > 0) v (1 · expm1 (select (v > 0) 0 v))` is the kernel's
  `select (v > 0) v (exp (min v 0) - 1)`: both are `v` above zero and `e^v - 1` otherwise, at the infinities too.
  Nothing here needs the inputs finite: only sums regrouped, `1 · z = z` and `min v 0 = v` for `v ≤ 0` are used.

  The frames of the two kernel programs are the generated ones; the reference's frame is its run as a straight line of
  host operations, none of which writes an argument.  The idealization rewrote no operation of the kernel.
-/
import proofs.«167154_j23802708755058_2_alg».proof.Defs
import proofs.«167154_j23802708755058_2_alg».proof.Proof.Gen.Kernel
import proofs.«167154_j23802708755058_2_alg».proof.Proof.Gen.Kernel.Skeleton
import proofs.«167154_j23802708755058_2_alg».proof.Proof.Gen.Kernel.Launch
import proofs.«167154_j23802708755058_2_alg».proof.Proof.Gen.Kernel.Points
import proofs.«167154_j23802708755058_2_alg».proof.Proof.Gen.Kernel.Frame
import proofs.«167154_j23802708755058_2_alg».proof.Proof.Gen.KernelIdeal
import proofs.«167154_j23802708755058_2_alg».proof.Proof.Gen.KernelIdeal.Skeleton
import proofs.«167154_j23802708755058_2_alg».proof.Proof.Gen.KernelIdeal.Launch
import proofs.«167154_j23802708755058_2_alg».proof.Proof.Gen.KernelIdeal.Points
import proofs.«167154_j23802708755058_2_alg».proof.Proof.Gen.KernelIdeal.Frame
import proofs.«167154_j23802708755058_2_alg».proof.Proof.Gen.KernelIdeal.Value
import proofs.«167154_j23802708755058_2_alg».proof.Proof.Gen.ReferenceIdeal
import proofs.«167154_j23802708755058_2_alg».proof.Proof.Gen.Pre_finite_inputs
import proofs.«167154_j23802708755058_2_alg».proof.Proof.KernelValue
import proofs.«167154_j23802708755058_2_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.StableHlo

/-- The two programs aggregate messages by the same operations on the same shapes: one function. -/
theorem msg_same (x : FVec Ideal Cert.KernelIdeal.S100000x32 .f32) (ew : FVec Ideal Cert.KernelIdeal.S1600000 .f32)
    (ei : IVec Cert.KernelIdeal.S2x1600000 32) :
    Cert.ReferenceIdeal.HostLine.msgOf (F := Ideal) x ew ei = Cert.KernelIdeal.Arrays.msgOf (F := Ideal) x ew ei := rfl

theorem frame_k : Cert.frame_Kernel := fun m ρ _ => Cert.Kernel.Gen.frame m ρ

theorem frame_ki : Cert.frame_KernelIdeal := fun m ρ _ => Cert.KernelIdeal.Gen.frame m ρ

/-- The reference runs as a straight line of host operations, none of which writes an argument array. -/
theorem frame_ri : Cert.frame_ReferenceIdeal := fun m ρ _ =>
  (θ_run Cert.ReferenceIdeal.defs _ _).mono (fun r h c =>
    ⟨(h c Cert.ReferenceIdeal.main_arg0).trans (Cert.ReferenceIdeal.HostLine.arg_kept _ _ (by simp)),
     (h c Cert.ReferenceIdeal.main_arg1).trans (Cert.ReferenceIdeal.HostLine.arg_kept _ _ (by simp)),
     (h c Cert.ReferenceIdeal.main_arg2).trans (Cert.ReferenceIdeal.HostLine.arg_kept _ _ (by simp)),
     (h c Cert.ReferenceIdeal.main_arg3).trans (Cert.ReferenceIdeal.HostLine.arg_kept _ _ (by simp)),
     (h c Cert.ReferenceIdeal.main_arg4).trans (Cert.ReferenceIdeal.HostLine.arg_kept _ _ (by simp)),
     (h c Cert.ReferenceIdeal.main_arg5).trans (Cert.ReferenceIdeal.HostLine.arg_kept _ _ (by simp)),
     (h c Cert.ReferenceIdeal.main_arg6).trans (Cert.ReferenceIdeal.HostLine.arg_kept _ _ (by simp)),
     (h c Cert.ReferenceIdeal.main_arg7).trans (Cert.ReferenceIdeal.HostLine.arg_kept _ _ (by simp)),
     (h c Cert.ReferenceIdeal.main_arg8).trans (Cert.ReferenceIdeal.HostLine.arg_kept _ _ (by simp))⟩)
    (Cert.ReferenceIdeal.HostLine.run_main (F := Ideal) m ρ)

/-- The idealization rewrote nothing. -/
theorem preserves : Cert.preserves_Kernel_KernelIdeal := trivial

/-- Both runs end with the result array at the network of the argument arrays. -/
theorem algebraic : Cert.algebraic_KernelIdeal_ReferenceIdeal := by
  intro m ρ m' ρ' _ hagree
  refine ⟨fun c => Cert.KernelIdeal.Whole.net m c, Cert.KernelIdeal.Whole.run m ρ, ?_⟩
  refine (θ_run Cert.ReferenceIdeal.defs _ _).mono (fun r h c => ?_) (Cert.ReferenceIdeal.HostLine.run_main (F := Ideal) m' ρ')
  obtain ⟨a0, a1, a2, a3, a4, a5, a6, a7, a8⟩ := hagree c
  refine ⟨?_,
     (h c Cert.ReferenceIdeal.main_arg0).trans (Cert.ReferenceIdeal.HostLine.arg_kept _ _ (by simp)),
     (h c Cert.ReferenceIdeal.main_arg1).trans (Cert.ReferenceIdeal.HostLine.arg_kept _ _ (by simp)),
     (h c Cert.ReferenceIdeal.main_arg2).trans (Cert.ReferenceIdeal.HostLine.arg_kept _ _ (by simp)),
     (h c Cert.ReferenceIdeal.main_arg3).trans (Cert.ReferenceIdeal.HostLine.arg_kept _ _ (by simp)),
     (h c Cert.ReferenceIdeal.main_arg4).trans (Cert.ReferenceIdeal.HostLine.arg_kept _ _ (by simp)),
     (h c Cert.ReferenceIdeal.main_arg5).trans (Cert.ReferenceIdeal.HostLine.arg_kept _ _ (by simp)),
     (h c Cert.ReferenceIdeal.main_arg6).trans (Cert.ReferenceIdeal.HostLine.arg_kept _ _ (by simp)),
     (h c Cert.ReferenceIdeal.main_arg7).trans (Cert.ReferenceIdeal.HostLine.arg_kept _ _ (by simp)),
     (h c Cert.ReferenceIdeal.main_arg8).trans (Cert.ReferenceIdeal.HostLine.arg_kept _ _ (by simp))⟩
  refine (h c Cert.ReferenceIdeal.main_v34).trans ?_
  rw [Cert.ReferenceIdeal.HostLine.result_eq, Cert.ReferenceIdeal.HostLine.ref_is_mlp]
  unfold Cert.KernelIdeal.Whole.net
  show Cert.GraphMlp.mlp (M := 100000) (m' ((c.tc : Thread Cert.ReferenceIdeal.nD Cert.ReferenceIdeal.τ).loc Cert.ReferenceIdeal.main_arg0))
      (Cert.ReferenceIdeal.HostLine.msgOf (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg8)))
      (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) = _
  rw [a0, a1, a2, a3, a4, a5, a6, a7, a8, msg_same]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
